-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S32 .f32) (main_arg6 : FVec F S32x2 .f32) (main_arg7 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x2 .f32 := Host.absf main_arg6
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) (main_arg6 : FVec F S32x2 .f32) (main_arg7 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x64 : Shape := ⟨2, ![5000, 64]⟩
abbrev S5000x1 : Shape := ⟨2, ![5000, 1]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S100000x2 : Shape := ⟨2, ![100000, 2]⟩
abbrev S5000x2 : Shape := ⟨2, ![5000, 2]⟩
abbrev S1700000x2 : Shape := ⟨2, ![1700000, 2]⟩
abbrev S1x2 : Shape := ⟨2, ![1, 2]⟩

abbrev nBuf : Space → Nat
  | .hbm => 82
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x64, .f32⟩
  | .hbm, ⟨43, _⟩ => ⟨S_, .f32⟩
  | .hbm, ⟨44, _⟩ => ⟨S100000x64, .f32⟩
  | .hbm, ⟨45, _⟩ => ⟨S1700000x1, .i32⟩
  | .hbm, ⟨46, _⟩ => ⟨S100000x64, .f32⟩
  | .hbm, ⟨47, _⟩ => ⟨S1x64, .f32⟩
  | .hbm, ⟨48, _⟩ => ⟨S100000x32, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x32, .f32⟩
  | .hbm, ⟨58, _⟩ => ⟨S_, .f32⟩
  | .hbm, ⟨59, _⟩ => ⟨S100000x32, .f32⟩
  | .hbm, ⟨60, _⟩ => ⟨S1700000x1, .i32⟩
  | .hbm, ⟨61, _⟩ => ⟨S100000x32, .f32⟩
  | .hbm, ⟨62, _⟩ => ⟨S1x32, .f32⟩
  | .hbm, ⟨63, _⟩ => ⟨S100000x2, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x2, .f32⟩
  | .hbm, ⟨73, _⟩ => ⟨S_, .f32⟩
  | .hbm, ⟨74, _⟩ => ⟨S100000x2, .f32⟩
  | .hbm, ⟨75, _⟩ => ⟨S1700000x1, .i32⟩
  | .hbm, ⟨76, _⟩ => ⟨S100000x2, .f32⟩
  | .hbm, ⟨77, _⟩ => ⟨S100000x2, .f32⟩
  | .hbm, ⟨78, _⟩ => ⟨S100000x2, .f32⟩
  | .hbm, ⟨79, _⟩ => ⟨S1x2, .f32⟩
  | .hbm, ⟨80, _⟩ => ⟨S100000x2, .f32⟩
  | .hbm, ⟨81, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S1x32, .f32⟩
  | .local _ .vmem, ⟨20, _⟩ => ⟨S32x2, .f32⟩
  | .local _ .vmem, ⟨21, _⟩ => ⟨S5000x2, .f32⟩
  | .local _ .vmem, ⟨22, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x2_S32x2_0_0 : ∀ a, (![0, 0] : Fin 2 → Nat) a + S32x2.size a ≤ S32x2.size a
  h_S32x2 : 0 < S32x2.numel
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x2_S5000x2_1_0_0_1_n_n_wf : DotDims.WF S5000x32 S32x2 S5000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x2.size a ≤ S32x2.size a
  hwx2_3 : ∀ i : grid2.Coords, EltTy.bits .f32 = 32 ∨ (Rect.block (s := S32x2) S32x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S100000x2.size a
  hwx2_4 : ∀ i : grid2.Coords, EltTy.bits .f32 = 32 ∨ (Rect.block (s := S100000x2) S5000x2.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S32x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 155
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x32, .f32⟩
  | 5 => ⟨S32, .f32⟩
  | 6 => ⟨S32x2, .f32⟩
  | 7 => ⟨S2, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x32, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S1700000x1, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x32, .f32⟩
  | 104 => ⟨S1700000x32, .f32⟩
  | 105 => ⟨S1700000x32, .f32⟩
  | 106 => ⟨S_, .f32⟩
  | 107 => ⟨S100000x32, .f32⟩
  | 108 => ⟨S1700000x1, .i32⟩
  | 109 => ⟨S100000x32, .f32⟩
  | 110 => ⟨S1x32, .f32⟩
  | 111 => ⟨S100000x32, .f32⟩
  | 112 => ⟨S100000x32, .f32⟩
  | 113 => ⟨S_, .f32⟩
  | 114 => ⟨S100000x32, .f32⟩
  | 115 => ⟨S100000x32, .f32⟩
  | 116 => ⟨S100000x2, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S_, .i32⟩
  | 127 => ⟨S1700000, .i32⟩
  | _ => ⟨S100000x64, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S1700000x1, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x2, .f32⟩
  | 18 => ⟨S1700000x2, .f32⟩
  | 19 => ⟨S1700000x2, .f32⟩
  | 20 => ⟨S_, .f32⟩
  | 21 => ⟨S100000x2, .f32⟩
  | 22 => ⟨S1700000x1, .i32⟩
  | 23 => ⟨S100000x2, .f32⟩
  | 24 => ⟨S1x2, .f32⟩
  | 25 => ⟨S100000x2, .f32⟩
  | 26 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_21 : Ref sig .tc := ⟨.hbm, 137, rfl⟩
abbrev main_v100 : Ref sig .tc := ⟨.hbm, 138, rfl⟩
abbrev main_v101 : Ref sig .tc := ⟨.hbm, 139, rfl⟩
abbrev main_c_22 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  dot_S100000x64_S64x64_S100000x64_1_0_0_1_n_n_wf : DotDims.WF S100000x64 S64x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x2_S100000x2_1_0_0_1_n_n_wf : DotDims.WF S100000x32 S32x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.LibCatPair.lean ====
/-
  A two-piece concatenation whose pieces can be rewritten.

  The library's concatenation takes a list of (shape, contents) pairs and a side condition stated over the list's
  shapes; because the condition's type mentions the list, a simplifier pass does not rewrite the contents inside it.
  `catPair` is the same function of two pieces with the condition stated over the two shapes alone, so the pieces are
  ordinary arguments; `concatenate_pair_eq` turns one into the other and holds by unfolding.
-/
import Idealize.ShloMosaic.PureOps

noncomputable section

namespace Cert.Lib.CatPair

open Idealize.ShloMosaic

/-- The concatenation of two pieces along axis `a`, its side condition stated over the two shapes. -/
def catPair {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- The library's concatenation of a two-element list is `catPair` of the two pieces. -/
theorem concatenate_pair_eq {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = catPair t a s₁ s₂ x₁ x₂ h := rfl

end Cert.Lib.CatPair

end
-- ==== Proof.Stages.lean ====
/-
  The dense stages of one graph-convolution layer, entry by entry over the extended reals.

  A node matrix of n rows is scaled row by row by a per-node weight dv (the inverse square root of the node's degree):
  * the first layer's block is  dv r · ∑ q, T r q · W q c  (the product with the weight matrix, then the row scale);
  * a later layer first forms  max (dv r · A r q + b q) 0  from the raw neighbourhood sums A (row scale, bias, rectifier)
    and then takes the same scaled product of that with its weight matrix.
  Matrices are functions of a row and a column; arr2 / fn2 pass between that form and an array over the rank-2 index set.
-/
import Idealize.ShloMosaic.PureOps.Ideal
import Idealize.ShloMosaic.Lib.ValueIdx

noncomputable section

namespace Cert.Hand

open Idealize.ShloMosaic Idealize.ShloMosaic.ValueIdx
open scoped BigOperators

variable {n k d : Nat}

/-- A matrix given entry by entry, as an array over the rank-2 index set. -/
def arr2 (f : Fin n → Fin d → EReal) : (⟨2, ![n, d]⟩ : Shape).Idx → EReal :=
  fun i => f ⟨(i 0).val, idx2_lt0 i⟩ ⟨(i 1).val, idx2_lt1 i⟩

/-- An array over the rank-2 index set, entry by entry. -/
def fn2 (A : (⟨2, ![n, d]⟩ : Shape).Idx → EReal) : Fin n → Fin d → EReal := fun r c => A (ix2 r c)

theorem arr2_ix2 (f : Fin n → Fin d → EReal) (r : Fin n) (c : Fin d) : arr2 f (ix2 r c) = f r c := rfl

theorem fn2_arr2 (f : Fin n → Fin d → EReal) : fn2 (arr2 f) = f := rfl

theorem arr2_fn2 (A : (⟨2, ![n, d]⟩ : Shape).Idx → EReal) : arr2 (fn2 A) = A :=
  funext fun i => congrArg A (eq_ix2 i).symm

/-- The one column of an [n, 1] array. -/
def colOf (A : (⟨2, ![n, 1]⟩ : Shape).Idx → EReal) : Fin n → EReal := fun r => A (ix2 r (0 : Fin 1))

/-- The one row of a [1, d] array. -/
def rowOf (A : (⟨2, ![1, d]⟩ : Shape).Idx → EReal) : Fin d → EReal := fun q => A (ix2 (0 : Fin 1) q)

/-- dv r · ∑ q, T r q · W q c : the product with the weight matrix, then the row scale. -/
def scaledProduct (dv : Fin n → EReal) (T : Fin n → Fin k → EReal) (W : Fin k → Fin d → EReal) :
    Fin n → Fin d → EReal :=
  fun r c => dv r * ∑ q : Fin k, T r q * W q c

/-- max (dv r · A r q + b q) 0 : row scale, bias, rectifier. -/
def activation (dv : Fin n → EReal) (A : Fin n → Fin k → EReal) (b : Fin k → EReal) : Fin n → Fin k → EReal :=
  fun r q => max (dv r * A r q + b q) 0

end Cert.Hand

end
-- ==== Proof.Spec.lean ====
/-
  Three graph-convolution layers over a fixed edge list, entry by entry over the extended reals, in two arrangements.

  The edge list is three columns of 32-bit words, one word per edge: gcol names the edge's source node and dcol its
  destination node for a READ (the word is read signed and clamped into the node range), scol names the destination
  for a SUM (the word is read signed and an edge whose word is no node number contributes nothing). dv is a per-node
  weight (the inverse square root of the node's degree).

  * One arrangement scales every edge's message by dv(source) · dv(destination) and sums the messages per destination:
    weightedSum, rLayer, refOut.
  * The other scales a node's row by dv once before the rows are read along the edges and once more after the per-
    destination sum: gatherSum, kAgg, kernelOut.

  They agree (ref_eq_kernel) because on the edges that land at node r the destination read is r itself, so the factor
  dv r is common to every term of r's sum, and a finite non-negative factor distributes over any sum of extended reals.
-/
import proofs.«106068_j19585050869931_2_alg».proof.Proof.Stages

noncomputable section

namespace Cert.Hand

open Idealize.ShloMosaic Idealize.ShloMosaic.ValueIdx
open scoped BigOperators

/-- The number of nodes. -/
abbrev NN : Nat := 100000
/-- The number of edges, self loops included. -/
abbrev RR : Nat := 1700000

/-- The node an index column names for edge e in a READ: its word, read signed, clamped into the node range. -/
def nodeOf (col : IVec ⟨2, ![RR, 1]⟩ 32) (e : Fin RR) : Fin NN :=
  ⟨min (col (ix2 e (0 : Fin 1))).toInt.toNat (NN - 1), by show min _ (100000 - 1) < 100000; omega⟩

/-- Edge e's term lands at node r in a SUM: the column's word, read signed and not clamped, is r. -/
def landsAt (col : IVec ⟨2, ![RR, 1]⟩ 32) (e : Fin RR) (r : Fin NN) : Prop :=
  (col (ix2 e (0 : Fin 1))).toInt = (r.val : Int)

instance (col : IVec ⟨2, ![RR, 1]⟩ 32) (e : Fin RR) (r : Fin NN) : Decidable (landsAt col e r) :=
  inferInstanceAs (Decidable ((col (ix2 e (0 : Fin 1))).toInt = (r.val : Int)))

variable {k d : Nat}

/-- The product of a node matrix with a weight matrix. -/
def product (T : Fin NN → Fin k → EReal) (W : Fin k → Fin d → EReal) : Fin NN → Fin d → EReal :=
  fun r c => ∑ q : Fin k, T r q * W q c

/-- The rectifier, entry by entry. -/
def relu (A : Fin NN → Fin d → EReal) : Fin NN → Fin d → EReal := fun r c => max (A r c) 0

/-- Per destination node, the sum of the source rows of H along the edges that land there. -/
def gatherSum (gcol scol : IVec ⟨2, ![RR, 1]⟩ 32) (H : Fin NN → Fin d → EReal) : Fin NN → Fin d → EReal :=
  fun r c => ∑ e : Fin RR, if landsAt scol e r then H (nodeOf gcol e) c else 0

/-- Per destination node, the sum of the source rows of H along the edges that land there, each scaled by the weights
    of the edge's two ends. -/
def weightedSum (dv : Fin NN → EReal) (gcol dcol scol : IVec ⟨2, ![RR, 1]⟩ 32) (H : Fin NN → Fin d → EReal) :
    Fin NN → Fin d → EReal :=
  fun r c => ∑ e : Fin RR, if landsAt scol e r then (dv (nodeOf gcol e) * dv (nodeOf dcol e)) * H (nodeOf gcol e) c else 0

/-- One layer, messages scaled edge by edge: the weighted sum of the rows of T · W, plus the bias. -/
def rLayer (dv : Fin NN → EReal) (gcol dcol scol : IVec ⟨2, ![RR, 1]⟩ 32) (T : Fin NN → Fin k → EReal)
    (W : Fin k → Fin d → EReal) (b : Fin d → EReal) : Fin NN → Fin d → EReal :=
  fun r c => weightedSum dv gcol dcol scol (product T W) r c + b c

/-- Three layers, messages scaled edge by edge, a rectifier after the first two. -/
def refOut (dv : Fin NN → EReal) (gcol dcol scol : IVec ⟨2, ![RR, 1]⟩ 32) (X : Fin NN → Fin 64 → EReal)
    (W1 : Fin 64 → Fin 64 → EReal) (b1 : Fin 64 → EReal) (W2 : Fin 64 → Fin 32 → EReal) (b2 : Fin 32 → EReal)
    (W3 : Fin 32 → Fin 2 → EReal) (b3 : Fin 2 → EReal) : Fin NN → Fin 2 → EReal :=
  rLayer dv gcol dcol scol (relu (rLayer dv gcol dcol scol (relu (rLayer dv gcol dcol scol X W1 b1)) W2 b2)) W3 b3

/-- One layer's raw neighbourhood sums, rows scaled before they are read: the sum of the rows of dv ⊙ (T · W). -/
def kAgg (dv : Fin NN → EReal) (gcol scol : IVec ⟨2, ![RR, 1]⟩ 32) (T : Fin NN → Fin k → EReal)
    (W : Fin k → Fin d → EReal) : Fin NN → Fin d → EReal :=
  gatherSum gcol scol (scaledProduct dv T W)

/-- Three layers, rows scaled before and after each neighbourhood sum. -/
def kernelOut (dv : Fin NN → EReal) (gcol scol : IVec ⟨2, ![RR, 1]⟩ 32) (X : Fin NN → Fin 64 → EReal)
    (W1 : Fin 64 → Fin 64 → EReal) (b1 : Fin 64 → EReal) (W2 : Fin 64 → Fin 32 → EReal) (b2 : Fin 32 → EReal)
    (W3 : Fin 32 → Fin 2 → EReal) (b3 : Fin 2 → EReal) : Fin NN → Fin 2 → EReal :=
  fun r c => dv r * kAgg dv gcol scol (activation dv (kAgg dv gcol scol (activation dv (kAgg dv gcol scol X W1) b1) W2) b2) W3 r c
    + b3 c

end Cert.Hand

end
-- ==== Proof.RefCols.lean ====
/-
  The edge columns and the node weight of the reference program, and two facts about them.

  From the edge list the reference builds three columns of 32-bit words, one word per edge (the given edges followed
  by one self loop per node): the source word and the destination word, each shifted up by the node count where it
  is negative (the columns used for reading), and the raw destination word (the column used for summing). The node
  weight is the inverse square root of the node's degree raised to at least one where the degree is positive, and
  zero elsewhere.

  * An edge that lands at node r in a sum is read at node r: a word that is a node number is not negative, so it is
    not shifted, and it is below the node count, so clamping it into the node range leaves it alone.
  * The node weight is a non-negative real: the inverse square root of a number that is at least one is a positive
    real, and the other branch is zero.
-/
import proofs.«106068_j19585050869931_2_alg».proof.Proof.RefRead
import proofs.«106068_j19585050869931_2_alg».proof.Proof.Spec

noncomputable section

namespace Cert.Hand.Ref

open Cert.ReferenceIdeal Cert.ReferenceIdeal.Read Idealize.ShloMosaic Idealize.ShloMosaic.ValueIdx Cert.Hand
open scoped BigOperators

/-- The per-node weight: the inverse square root of the node's degree raised to at least one where the degree is
    positive, zero elsewhere. -/
def dvOf (x1 : (⟨S2x1600000, .i32⟩ : BufTy).Contents (Elt Ideal)) : Fin NN → EReal :=
  fun r => val_main_v16 (F := Ideal) x1 (ix1 r)

/-- The wrapped source column (read). -/
def gcolOf (x1 : (⟨S2x1600000, .i32⟩ : BufTy).Contents (Elt Ideal)) : IVec ⟨2, ![RR, 1]⟩ 32 := val_main_v23 (F := Ideal) x1
/-- The wrapped destination column (read). -/
def dcolOf (x1 : (⟨S2x1600000, .i32⟩ : BufTy).Contents (Elt Ideal)) : IVec ⟨2, ![RR, 1]⟩ 32 := val_main_v30 (F := Ideal) x1
/-- The raw destination column (sum). -/
def scolOf (x1 : (⟨S2x1600000, .i32⟩ : BufTy).Contents (Elt Ideal)) : IVec ⟨2, ![RR, 1]⟩ 32 := val_main_v9 (F := Ideal) x1

/-! ## The edge columns: an edge that lands at a node is read at that node -/

theorem lands_node (x1 : (⟨S2x1600000, .i32⟩ : BufTy).Contents (Elt Ideal)) (e : Fin RR) (r : Fin NN) :
    landsAt (scolOf x1) e r → nodeOf (dcolOf x1) e = r := by
  intro h
  have h' : (val_main_v9 (F := Ideal) x1 (ix2 e (0 : Fin 1))).toInt = (r.val : Int) := h
  rw [val_main_v9_apply] at h'
  refine Fin.ext ?_
  show min (val_main_v30 (F := Ideal) x1 (ix2 e (0 : Fin 1))).toInt.toNat (100000 - 1) = r.val
  rw [val_main_v30_apply, val_main_v29_apply, val_main_v26_apply, val_main_v28_apply, val_main_v25_apply,
    val_main_c_5_apply]
  have hidx : idx_main_v30 (ix2 e (0 : Fin 1)) = idx_main_v9 (ix2 e (0 : Fin 1)) := funext fun a => match a with | ⟨0, _⟩ => rfl
  rw [hidx]
  generalize val_main_v6 (F := Ideal) x1 (idx_main_v9 (ix2 e (0 : Fin 1))) = y at h' ⊢
  -- the word is a node number, so it is not negative: the comparison with zero fails and the word is kept
  have hslt : IntOp.cmpi .slt y 0#32 = 0#1 := by
    have : y.slt 0#32 = false := by
      rw [BitVec.slt_eq_decide, BitVec.toInt_zero, decide_eq_false_iff_not]
      omega
    unfold IntOp.cmpi
    rw [this]
    rfl
  rw [hslt]
  unfold Scalar.select
  rw [if_neg (by decide)]
  have hr : r.val < 100000 := r.isLt
  omega

/-! ## The node weight is a non-negative real -/

theorem one_f32 : Ideal.ofBits .f32 0x3F800000#32 = 1 := by
  simp [Ideal.ofBits, Ideal.ieee, -EReal.coe_mul]; norm_num

/-- The inverse square root of a number raised to at least one is a non-negative real. -/
theorem rsqrt_max_one (y : EReal) : 0 ≤ Ideal.rsqrt (max y 1) ∧ Ideal.rsqrt (max y 1) ≠ ⊤ := by
  have real : ∀ s : ℝ, 1 ≤ s → 0 ≤ Ideal.rsqrt (s : EReal) ∧ Ideal.rsqrt (s : EReal) ≠ ⊤ := by
    intro s hs
    rw [Ideal.rsqrt_coe, if_neg (by linarith), if_neg (by linarith)]
    exact ⟨EReal.coe_nonneg.mpr (inv_nonneg.mpr (Real.sqrt_nonneg s)), EReal.coe_ne_top _⟩
  induction y using EReal.rec with
  | bot =>
    rw [max_eq_right bot_le, ← EReal.coe_one]
    exact real 1 le_rfl
  | coe t =>
    rw [← EReal.coe_one, ← EReal.coe_strictMono.monotone.map_max]
    exact real (max t 1) (le_max_right t 1)
  | top =>
    rw [max_eq_left le_top, Ideal.rsqrt_top]
    exact ⟨le_rfl, EReal.zero_ne_top⟩

/-- A property of both branches of a selection holds of the selection. -/
theorem select_cases {α : Type} (P : α → Prop) (m : BitVec 1) (a b : α) (ha : P a) (hb : P b) :
    P (Scalar.select m a b) := by
  unfold Scalar.select
  split
  · exact ha
  · exact hb

theorem dv_bounds (x1 : (⟨S2x1600000, .i32⟩ : BufTy).Contents (Elt Ideal)) (r : Fin NN) : 0 ≤ dvOf x1 r ∧ dvOf x1 r ≠ ⊤ := by
  unfold dvOf
  rw [val_main_v16_apply]
  refine select_cases (fun v : EReal => 0 ≤ v ∧ v ≠ ⊤) _ _ _ ?_ ?_
  · -- where the degree is positive: the inverse square root of the degree raised to at least one
    beta_reduce
    rw [val_main_v15_apply, val_main_v14_apply, val_main_v13_apply, val_main_cst_2_apply,
      Ideal.hostUnary_rsqrt_def, Ideal.maximumf_def, Ideal.ofBits_def, one_f32]
    exact rsqrt_max_one (val_main_v10 (F := Ideal) x1 (ix1 r))
  · -- elsewhere: zero
    beta_reduce
    rw [val_main_call0_v1_apply, val_main_call0_v0_apply, val_main_cst_3_apply, Ideal.ofBits_def,
      Ideal.ofBits_zero_f32]
    exact ⟨le_rfl, EReal.zero_ne_top⟩

end Cert.Hand.Ref

end
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.LibGatherVec.lean ====
/-
  A gather of single elements of a vector, read at an index.

  Taking elements of a vector `x : [N]` at an integer column of positions `idx : [R, 1]` is a gather that collapses the
  operand's one axis (slices of one element), has no offset axis, and reads each start index off `idx`'s second axis.
  Its element `e` is `x` at the position `idx[e, 0]` — read as a signed integer and clamped into `[0, N − 1]`, as every
  start index of a gather is.
-/
import Idealize.ShloMosaic.PureOps
import Idealize.ShloMosaic.Lib.ValueIdx

namespace Cert.Lib.GatherVec

open Idealize.ShloMosaic Idealize.ShloMosaic.ValueIdx

variable {α : Type}

/-- The dimension numbers of that gather for an operand `[N]`, start indices `[R, 1]` and a result `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `e`: the operand at the position `idx[e, 0]`, read signed and clamped into `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N R wf).start (ix1 e) idx 0 + (vecDims N R wf).batchCoord (ix1 e) 0 + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.GatherVec
-- ==== Proof.LibScatterRows.lean ====
/-
  A scatter-add of whole rows, read at an index.

  Adding the rows of an update matrix `upd : [R, D]` into the rows of an operand `x : [N, D]` at the row numbers held in
  an integer column `idx : [R, 1]` is a scatter whose row axis is the inserted (one-element) window axis named by the
  scatter index, and whose column axis is the one update window axis. Update element `(e, c)` lands at row `idx[e, 0]`
  — read as a signed integer and NOT clamped: an update whose row number is outside `[0, N − 1]` is dropped — and
  column `c`. So at the extended reals element `(r, c)` of the result is

      x[r, c] + ∑ over the update rows e with idx[e, 0] = r of upd[e, c].

  The rank-1 form (operand `[N]`, indices `[R, 1]`, updates `[R]`) has no window axis at all: update element `e` lands
  at position `idx[e, 0]`, and element `r` of the result is `x[r] + ∑ over e with idx[e, 0] = r of upd[e]`.
-/
import Idealize.ShloMosaic.PureOps
import Idealize.ShloMosaic.PureOps.Ideal
import Idealize.ShloMosaic.Lib.ValueIdx

namespace Cert.Lib.ScatterRows

open Idealize.ShloMosaic Idealize.ShloMosaic.ValueIdx
open scoped BigOperators

/-- WHERE AN UPDATE LANDS: update index `j` lands at operand index `i` exactly when on every operand axis the signed
    start plus the window coordinate is `i`'s coordinate (being a coordinate of `i`, that number is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hEq a
      have := h a
      rw [← hEq]
      show _ = (((d.start j idx a + (d.window j a : Int)).toNat : Nat) : Int)
      omega
    · intro hEq
      funext a
      refine Fin.ext ?_
      show (d.start j idx a + (d.window j a : Int)).toNat = (i a).val
      have := hEq a
      omega
  · rename_i h
    constructor
    · intro hEq; exact absurd hEq (by simp)
    · intro hEq
      exfalso; apply h
      intro a
      have := hEq a
      have := (i a).isLt
      omega

/-! ## Rows of a matrix -/

/-- The dimension numbers of that scatter for an operand `[N, D]`, scatter indices `[R, 1]` and updates `[R, D]`. -/
abbrev rowsDims (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section Rows
variable {N R D w : Nat} (wf : ScatterDims.WF ⟨2, ![N, D]⟩ ⟨2, ![R, 1]⟩ ⟨2, ![R, D]⟩ [1] [0] [0] 1)

/-- The row axis is the one the scatter index names: its start is the row number `idx[e, 0]`, read signed. -/
theorem rows_start_row (idx : IVec ⟨2, ![R, 1]⟩ w) (e : Fin R) (c' : Fin D) :
    (rowsDims N R D wf).start (ix2 e c') idx (0 : Fin 2) = (idx (ix2 e (0 : Fin 1))).toInt := by
  unfold ScatterDims.start
  rw [dif_pos (show (0 : Fin 2) ∈ (rowsDims N R D wf).scatterDimsToOperandDims from List.mem_singleton.mpr rfl)]
  have hsi : (rowsDims N R D wf).siIdx (ix2 e c') ⟨List.idxOf (0 : Fin 2) (rowsDims N R D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the scatter index: its start is `0`. -/
theorem rows_start_col (idx : IVec ⟨2, ![R, 1]⟩ w) (j : (⟨2, ![R, D]⟩ : Shape).Idx) :
    (rowsDims N R D wf).start j idx (1 : Fin 2) = 0 := by
  unfold ScatterDims.start
  rw [dif_neg (show (1 : Fin 2) ∉ ([0] : List (Fin 2)) by decide)]

/-- The row axis is an inserted window axis: no window coordinate. -/
theorem rows_window_row (j : (⟨2, ![R, D]⟩ : Shape).Idx) : (rowsDims N R D wf).window j (0 : Fin 2) = 0 := by
  unfold ScatterDims.window
  have h0 : (0 : Fin 2) ∉ (List.finRange 2).filter (· ∉ ([0] : List (Fin 2))) := by decide
  rw [dif_neg (show (0 : Fin 2) ∉ (rowsDims N R D wf).sKept from h0)]

/-- The column axis is the window axis: its window coordinate is the update's column. -/
theorem rows_window_col (e : Fin R) (c' : Fin D) : (rowsDims N R D wf).window (ix2 e c') (1 : Fin 2) = c'.val := by
  unfold ScatterDims.window
  have h1 : (1 : Fin 2) ∈ (List.finRange 2).filter (· ∉ ([0] : List (Fin 2))) := by decide
  rw [dif_pos (show (1 : Fin 2) ∈ (rowsDims N R D wf).sKept from h1)]
  rfl

/-- WHERE UPDATE ELEMENT `(e, c')` LANDS: at `(r, c)` exactly when its row number `idx[e, 0]`, read signed, is `r` and its
    column is `c`. -/
theorem rows_resultIdx?_iff (idx : IVec ⟨2, ![R, 1]⟩ w) (e : Fin R) (c' : Fin D) (r : Fin N) (c : Fin D) :
    (rowsDims N R D wf).resultIdx? (ix2 e c') idx = some (ix2 r c)
      ↔ (idx (ix2 e (0 : Fin 1))).toInt = (r.val : Int) ∧ c' = c := by
  rw [resultIdx?_eq_some_iff]
  constructor
  · intro h
    have h0 := h (0 : Fin 2)
    have h1 := h (1 : Fin 2)
    rw [rows_start_row, rows_window_row] at h0
    rw [rows_start_col, rows_window_col] at h1
    have h0' : (idx (ix2 e (0 : Fin 1))).toInt + ((0 : Nat) : Int) = (r.val : Int) := h0
    have h1' : (0 : Int) + (c'.val : Int) = (c.val : Int) := h1
    exact ⟨by omega, Fin.ext (by omega)⟩
  · rintro ⟨h0, rfl⟩ a
    match a with
    | ⟨0, _⟩ =>
      show (rowsDims N R D wf).start (ix2 e c') idx (0 : Fin 2) + ((rowsDims N R D wf).window (ix2 e c') (0 : Fin 2) : Int)
        = (r.val : Int)
      rw [rows_start_row, rows_window_row]; omega
    | ⟨1, _⟩ =>
      show (rowsDims N R D wf).start (ix2 e c') idx (1 : Fin 2) + ((rowsDims N R D wf).window (ix2 e c') (1 : Fin 2) : Int)
        = (c'.val : Int)
      rw [rows_start_col, rows_window_col]; omega

/-- THE SCATTER-ADD READ AT `(r, c)`: the operand's element plus the sum, over the update rows whose row number
    `idx[e, 0]` (read signed) is `r`, of their elements in column `c`. -/
theorem scatterAdd_rows_apply (x : (⟨2, ![N, D]⟩ : Shape).Idx → EReal) (idx : IVec ⟨2, ![R, 1]⟩ w)
    (upd : (⟨2, ![R, D]⟩ : Shape).Idx → EReal) (r : Fin N) (c : Fin D) :
    Ideal.hostScatterAdd (rowsDims N R D wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_congr rfl fun c' _ =>
      if_congr ((rows_resultIdx?_iff wf idx e c' r c).trans (and_iff_right he)) rfl rfl).trans ?_
    exact (Finset.sum_ite_eq' Finset.univ c fun c' => upd (ix2 e c')).trans (if_pos (Finset.mem_univ c))
  · rw [if_neg he]
    exact Finset.sum_eq_zero fun c' _ =>
      if_neg fun h => he ((rows_resultIdx?_iff wf idx e c' r c).mp h).1

end Rows

/-! ## Elements of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the rank-1 scatter: an operand `[N]`, scatter indices `[R, 1]` and updates `[R]`; the
    operand's one axis is the inserted window axis the scatter index names, and the updates have no window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The one operand axis is named by the scatter index: its start is the position `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: no window coordinate. -/
theorem vec_window (j : (⟨1, ![R]⟩ : Shape).Idx) : (vecDims N R wf).window j (0 : Fin 1) = 0 := by
  unfold ScatterDims.window
  have h0 : (0 : Fin 1) ∉ (List.finRange 1).filter (· ∉ ([0] : List (Fin 1))) := by decide
  rw [dif_neg (show (0 : Fin 1) ∉ (vecDims N R wf).sKept from h0)]

/-- WHERE UPDATE ELEMENT `e` LANDS: at `r` exactly when its position `idx[e, 0]`, read signed, is `r`. -/
theorem vec_resultIdx?_iff (idx : IVec ⟨2, ![R, 1]⟩ w) (e : Fin R) (r : Fin N) :
    (vecDims N R wf).resultIdx? (ix1 e) idx = some (ix1 r) ↔ (idx (ix2 e (0 : Fin 1))).toInt = (r.val : Int) := by
  rw [resultIdx?_eq_some_iff]
  constructor
  · intro h
    have h0 := h (0 : Fin 1)
    rw [vec_start, vec_window] at h0
    have h0' : (idx (ix2 e (0 : Fin 1))).toInt + ((0 : Nat) : Int) = (r.val : Int) := h0
    omega
  · intro h0 a
    obtain rfl : a = 0 := Subsingleton.elim _ _
    show (vecDims N R wf).start (ix1 e) idx (0 : Fin 1) + ((vecDims N R wf).window (ix1 e) (0 : Fin 1) : Int) = (r.val : Int)
    rw [vec_start, vec_window]; omega

/-- THE RANK-1 SCATTER-ADD READ AT `r`: the operand's element plus the sum of the update elements whose position
    `idx[e, 0]` (read signed) is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r)
      = x (ix1 r) + ∑ e : Fin R, if (idx (ix2 e (0 : Fin 1))).toInt = (r.val : Int) then upd (ix1 e) else 0 := by
  unfold Ideal.hostScatterAdd
  congr 1
  rw [Finset.sum_filter, sum_idx1]
  exact Finset.sum_congr rfl fun e _ => if_congr (vec_resultIdx?_iff wf idx e r) rfl rfl

end Vec

end Cert.Lib.ScatterRows
-- ==== Proof.RefValue.lean ====
/-
  The value of the reference program: three graph-convolution layers, each a per-destination sum of edge messages.

  Every layer of the reference
  * multiplies the node matrix by the layer's weight matrix,
  * reads, for every edge, the node weight at its source node and at its destination node and multiplies the two,
  * reads the product's row of the edge's source node and scales it by that factor,
  * adds the scaled rows into a zero matrix at the edge's raw destination word (an edge whose word is no node
    number is dropped), and adds the bias row to every row.
  A rectifier follows the first two layers. Entry by entry each layer is rLayer of its input, and the whole program
  is refOut of the eight arguments.

  The aggregation is proved once for any row width: a scatter-add, into zeros, of gathered rows each scaled by the
  product of two gathered weights is the weighted sum. The reference recomputes its three edge columns before every
  use; the recomputed columns apply the same integer operations to the same words, so they are the columns named
  once. Each layer is then the aggregation at its own width, its matrix product read entry by entry, and its bias.
-/
import proofs.«106068_j19585050869931_2_alg».proof.Proof.RefCols
import proofs.«106068_j19585050869931_2_alg».proof.Proof.LibGatherRows
import proofs.«106068_j19585050869931_2_alg».proof.Proof.LibGatherVec
import proofs.«106068_j19585050869931_2_alg».proof.Proof.LibScatterRows

noncomputable section

namespace Cert.Hand.Ref

open Cert.ReferenceIdeal Cert.ReferenceIdeal.Read Idealize.ShloMosaic Idealize.ShloMosaic.ValueIdx Cert.Hand
open scoped BigOperators

/-! ## One aggregation, for any row width -/

section Core
variable {D : Nat}

/-- Entry (e, c) of the rows read along the edges takes its row number from entry (e, 0) of the column. -/
theorem rowsIdx_ix2 (e : Fin RR) (c : Fin D) :
    Cert.Lib.GatherRows.rowsIdx (ix2 e c) = ix2 e (0 : Fin 1) := funext fun a => match a with | ⟨0, _⟩ => rfl | ⟨1, _⟩ => rfl

/-- Entry (e, c) of the rows of H read along the edges: row nodeOf gcol e of H, column c. -/
theorem gather_rows_ix2
    (wfG : GatherDims.WF ⟨2, ![NN, D]⟩ ⟨2, ![RR, 1]⟩ ⟨2, ![RR, D]⟩ [1] [0] [] [0] [] 1 ![1, D])
    (H : (⟨2, ![NN, D]⟩ : Shape).Idx → EReal) (gcol : IVec ⟨2, ![RR, 1]⟩ 32) (e : Fin RR) (c : Fin D) :
    Host.gather (Cert.Lib.GatherRows.rowsDims NN RR D wfG) H gcol (ix2 e c) = H (ix2 (nodeOf gcol e) c) := by
  rw [Cert.Lib.GatherRows.gather_rows_apply (by decide)]
  refine congrArg H (funext fun a => ?_)
  match a with
  | ⟨0, _⟩ =>
    refine Fin.ext ?_
    show min (gcol (Cert.Lib.GatherRows.rowsIdx (ix2 e c))).toInt.toNat (NN - 1)
      = min (gcol (ix2 e (0 : Fin 1))).toInt.toNat (NN - 1)
    rw [rowsIdx_ix2]
  | ⟨1, _⟩ => rfl

/-- Rows of H read at the source nodes, each scaled by the product of the weights read at the edge's two ends, and
    added into a zero matrix at the raw destination words: the weighted sum. -/
theorem scaled_scatter
    (wfS : ScatterDims.WF ⟨2, ![NN, D]⟩ ⟨2, ![RR, 1]⟩ ⟨2, ![RR, D]⟩ [1] [0] [0] 1)
    (wfG : GatherDims.WF ⟨2, ![NN, D]⟩ ⟨2, ![RR, 1]⟩ ⟨2, ![RR, D]⟩ [1] [0] [] [0] [] 1 ![1, D])
    (wfV : GatherDims.WF ⟨1, ![NN]⟩ ⟨2, ![RR, 1]⟩ ⟨1, ![RR]⟩ [] [0] [] [0] [] 1 ![1])
    (dvv : (⟨1, ![NN]⟩ : Shape).Idx → EReal) (gcol dcol scol : IVec ⟨2, ![RR, 1]⟩ 32)
    (H Z : (⟨2, ![NN, D]⟩ : Shape).Idx → EReal) (Sc : (⟨2, ![RR, D]⟩ : Shape).Idx → EReal)
    (hZ : ∀ i, Z i = 0)
    (hSc : ∀ (e : Fin RR) (c : Fin D), Sc (ix2 e c)
      = Host.gather (Cert.Lib.GatherVec.vecDims NN RR wfV) dvv gcol (ix1 e)
        * Host.gather (Cert.Lib.GatherVec.vecDims NN RR wfV) dvv dcol (ix1 e))
    (r : Fin NN) (c : Fin D) :
    Ideal.hostScatterAdd (Cert.Lib.ScatterRows.rowsDims NN RR D wfS) Z scol
        (fun i => Sc i * Host.gather (Cert.Lib.GatherRows.rowsDims NN RR D wfG) H gcol i) (ix2 r c)
      = weightedSum (fun n => dvv (ix1 n)) gcol dcol scol (fn2 H) r c := by
  rw [Cert.Lib.ScatterRows.scatterAdd_rows_apply, hZ, zero_add]
  unfold weightedSum
  refine Finset.sum_congr rfl fun e _ => ?_
  refine if_congr Iff.rfl ?_ rfl
  beta_reduce
  rw [hSc, Cert.Lib.GatherVec.gather_vec_apply (by decide), Cert.Lib.GatherVec.gather_vec_apply (by decide),
    gather_rows_ix2]
  rfl

end Core

/-! ## The host's accumulating scatter at the extended reals -/

/-- Read at the extended reals, the host's accumulating scatter is the exact per-element sum. -/
theorem scatterAdd_ideal {s si u : Shape} {w : Nat} (d : ScatterDims s si u)
    (x : FVec Ideal s .f32) (idx : IVec si w) (upd : FVec Ideal u .f32) :
    Host.scatterAdd d x idx upd = Ideal.hostScatterAdd d x idx upd := rfl

/-! ## The reference recomputes the same three columns before every use

The recomputed columns apply the same integer operations to the same words with constants of equal value, so
they are equal by unfolding; this holds for any reading of the floats, which the columns do not involve. -/

section Columns
variable {F : FTy → Type} [FloatOps F] (x1 : (⟨S2x1600000, .i32⟩ : BufTy).Contents (Elt F))

theorem w38 : val_main_v38 (F := F) x1 = val_main_v22 (F := F) x1 := rfl
theorem w55 : val_main_v55 (F := F) x1 = val_main_v22 (F := F) x1 := rfl
theorem w71 : val_main_v71 (F := F) x1 = val_main_v22 (F := F) x1 := rfl
theorem w88 : val_main_v88 (F := F) x1 = val_main_v22 (F := F) x1 := rfl
theorem w104 : val_main_v104 (F := F) x1 = val_main_v22 (F := F) x1 := rfl
theorem w62 : val_main_v62 (F := F) x1 = val_main_v29 (F := F) x1 := rfl
theorem w95 : val_main_v95 (F := F) x1 = val_main_v29 (F := F) x1 := rfl

theorem c39 : val_main_v39 (F := F) x1 = val_main_v23 (F := F) x1 := by
  unfold val_main_v39 val_main_v23
  rw [w38]
theorem c56 : val_main_v56 (F := F) x1 = val_main_v23 (F := F) x1 := by
  unfold val_main_v56 val_main_v23
  rw [w55]
theorem c72 : val_main_v72 (F := F) x1 = val_main_v23 (F := F) x1 := by
  unfold val_main_v72 val_main_v23
  rw [w71]
theorem c89 : val_main_v89 (F := F) x1 = val_main_v23 (F := F) x1 := by
  unfold val_main_v89 val_main_v23
  rw [w88]
theorem c105 : val_main_v105 (F := F) x1 = val_main_v23 (F := F) x1 := by
  unfold val_main_v105 val_main_v23
  rw [w104]
theorem c63 : val_main_v63 (F := F) x1 = val_main_v30 (F := F) x1 := by
  unfold val_main_v63 val_main_v30
  rw [w62]
theorem c96 : val_main_v96 (F := F) x1 = val_main_v30 (F := F) x1 := by
  unfold val_main_v96 val_main_v30
  rw [w95]
theorem c44 : val_main_v44 (F := F) x1 = val_main_v9 (F := F) x1 := rfl
theorem c77 : val_main_v77 (F := F) x1 = val_main_v9 (F := F) x1 := rfl
theorem c110 : val_main_v110 (F := F) x1 = val_main_v9 (F := F) x1 := rfl

end Columns

/-- The wrapped source column, at each of its six uses. -/
theorem g23 (x1 : (⟨S2x1600000, .i32⟩ : BufTy).Contents (Elt Ideal)) : val_main_v23 (F := Ideal) x1 = gcolOf x1 := by unfold gcolOf; rfl
theorem g39 (x1 : (⟨S2x1600000, .i32⟩ : BufTy).Contents (Elt Ideal)) : val_main_v39 (F := Ideal) x1 = gcolOf x1 := by unfold gcolOf; exact c39 x1
theorem g56 (x1 : (⟨S2x1600000, .i32⟩ : BufTy).Contents (Elt Ideal)) : val_main_v56 (F := Ideal) x1 = gcolOf x1 := by unfold gcolOf; exact c56 x1
theorem g72 (x1 : (⟨S2x1600000, .i32⟩ : BufTy).Contents (Elt Ideal)) : val_main_v72 (F := Ideal) x1 = gcolOf x1 := by unfold gcolOf; exact c72 x1
theorem g89 (x1 : (⟨S2x1600000, .i32⟩ : BufTy).Contents (Elt Ideal)) : val_main_v89 (F := Ideal) x1 = gcolOf x1 := by unfold gcolOf; exact c89 x1
theorem g105 (x1 : (⟨S2x1600000, .i32⟩ : BufTy).Contents (Elt Ideal)) : val_main_v105 (F := Ideal) x1 = gcolOf x1 := by unfold gcolOf; exact c105 x1

/-- The wrapped destination column, at each of its three uses. -/
theorem d30 (x1 : (⟨S2x1600000, .i32⟩ : BufTy).Contents (Elt Ideal)) : val_main_v30 (F := Ideal) x1 = dcolOf x1 := by unfold dcolOf; rfl
theorem d63 (x1 : (⟨S2x1600000, .i32⟩ : BufTy).Contents (Elt Ideal)) : val_main_v63 (F := Ideal) x1 = dcolOf x1 := by unfold dcolOf; exact c63 x1
theorem d96 (x1 : (⟨S2x1600000, .i32⟩ : BufTy).Contents (Elt Ideal)) : val_main_v96 (F := Ideal) x1 = dcolOf x1 := by unfold dcolOf; exact c96 x1

/-- The raw destination column, at each of its four uses. -/
theorem s9 (x1 : (⟨S2x1600000, .i32⟩ : BufTy).Contents (Elt Ideal)) : val_main_v9 (F := Ideal) x1 = scolOf x1 := by unfold scolOf; rfl
theorem s44 (x1 : (⟨S2x1600000, .i32⟩ : BufTy).Contents (Elt Ideal)) : val_main_v44 (F := Ideal) x1 = scolOf x1 := by unfold scolOf; exact c44 x1
theorem s77 (x1 : (⟨S2x1600000, .i32⟩ : BufTy).Contents (Elt Ideal)) : val_main_v77 (F := Ideal) x1 = scolOf x1 := by unfold scolOf; exact c77 x1
theorem s110 (x1 : (⟨S2x1600000, .i32⟩ : BufTy).Contents (Elt Ideal)) : val_main_v110 (F := Ideal) x1 = scolOf x1 := by unfold scolOf; exact c110 x1

/-! ## The printed dimension records are the general ones -/

theorem recV : gather_S100000_S1700000x1_S1700000_n_0_n_n_0_1_1 = Cert.Lib.GatherVec.vecDims NN RR Gen.gather_S100000_S1700000x1_S1700000_n_0_n_n_0_1_1_wf := rfl
theorem recG64 : gather_S100000x64_S1700000x1_S1700000x64_1_0_n_n_0_1_164
    = Cert.Lib.GatherRows.rowsDims NN RR 64 Gen.gather_S100000x64_S1700000x1_S1700000x64_1_0_n_n_0_1_164_wf := rfl
theorem recS64 : scatter_S100000x64_S1700000x1_S1700000x64_1_0_0_1
    = Cert.Lib.ScatterRows.rowsDims NN RR 64 Gen.scatter_S100000x64_S1700000x1_S1700000x64_1_0_0_1_wf := rfl
theorem recG32 : gather_S100000x32_S1700000x1_S1700000x32_1_0_n_n_0_1_132
    = Cert.Lib.GatherRows.rowsDims NN RR 32 Gen.gather_S100000x32_S1700000x1_S1700000x32_1_0_n_n_0_1_132_wf := rfl
theorem recS32 : scatter_S100000x32_S1700000x1_S1700000x32_1_0_0_1
    = Cert.Lib.ScatterRows.rowsDims NN RR 32 Gen.scatter_S100000x32_S1700000x1_S1700000x32_1_0_0_1_wf := rfl
theorem recG2 : gather_S100000x2_S1700000x1_S1700000x2_1_0_n_n_0_1_12
    = Cert.Lib.GatherRows.rowsDims NN RR 2 Gen.gather_S100000x2_S1700000x1_S1700000x2_1_0_n_n_0_1_12_wf := rfl
theorem recS2 : scatter_S100000x2_S1700000x1_S1700000x2_1_0_0_1
    = Cert.Lib.ScatterRows.rowsDims NN RR 2 Gen.scatter_S100000x2_S1700000x1_S1700000x2_1_0_0_1_wf := rfl

/-! ## Layer 1 -/

/-- The matrix the rows are added into is zero. -/
theorem zero_1 (i : S100000x64.Idx) : val_main_v43 (F := Ideal) i = 0 := by
  rw [val_main_v43_apply, val_main_cst_9_apply, Ideal.ofBits_def, Ideal.ofBits_zero_f32]

/-- The factor of edge e, the same in every column: the weight read at its source times the weight read at its
    destination. -/
theorem scale_1 (x1 : (⟨S2x1600000, .i32⟩ : BufTy).Contents (Elt Ideal)) (e : Fin RR) (c : Fin 64) :
    val_main_v41 (F := Ideal) x1 (ix2 e c)
      = Host.gather (Cert.Lib.GatherVec.vecDims NN RR Gen.gather_S100000_S1700000x1_S1700000_n_0_n_n_0_1_1_wf) (val_main_v16 (F := Ideal) x1) (gcolOf x1) (ix1 e)
        * Host.gather (Cert.Lib.GatherVec.vecDims NN RR Gen.gather_S100000_S1700000x1_S1700000_n_0_n_n_0_1_1_wf) (val_main_v16 (F := Ideal) x1) (dcolOf x1) (ix1 e) := by
  rw [val_main_v41_apply, val_main_v33_apply, val_main_v32_apply, Ideal.mulf_def]
  have hi : idx_main_v33 (idx_main_v41 (ix2 e c)) = ix1 e := funext fun a => match a with | ⟨0, _⟩ => rfl
  rw [hi]
  unfold val_main_v24 val_main_v31
  rw [g23 x1, d30 x1, recV]

/-- The bias row, the same in every row. -/
theorem bias_1 (x3 : (⟨S64, .f32⟩ : BufTy).Contents (Elt Ideal)) (r : Fin NN) (c : Fin 64) :
    val_main_v47 (F := Ideal) x3 (ix2 r c) = x3 (ix1 c) := by
  rw [val_main_v47_apply, val_main_v46_apply]
  exact congrArg x3 (funext fun a => match a with | ⟨0, _⟩ => rfl)

/-- The scaled rows: the edge's factor times the row of the product read at the edge's source. -/
theorem upd_1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) :
    val_main_v42 (F := Ideal) x0 x1 x2
      = fun i => val_main_v41 (F := Ideal) x1 i
          * Host.gather (Cert.Lib.GatherRows.rowsDims NN RR 64 Gen.gather_S100000x64_S1700000x1_S1700000x64_1_0_n_n_0_1_164_wf) (val_main_v17 (F := Ideal) x0 x2) (gcolOf x1) i := by
  unfold val_main_v42 val_main_v40
  rw [g39 x1, recG64]
  unfold Idealize.ShloMosaic.mulf
  funext i
  beta_reduce
  rw [Ideal.mulf_def]

/-- The layer's per-destination sum is the weighted sum of the rows of its matrix product. -/
theorem agg_1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (r : Fin NN) (c : Fin 64) :
    val_main_v45 (F := Ideal) x0 x1 x2 (ix2 r c)
      = weightedSum (dvOf x1) (gcolOf x1) (dcolOf x1) (scolOf x1) (fn2 (val_main_v17 (F := Ideal) x0 x2)) r c := by
  unfold val_main_v45
  rw [s44 x1]
  rw [upd_1]
  rw [recS64]
  have h := scaled_scatter Gen.scatter_S100000x64_S1700000x1_S1700000x64_1_0_0_1_wf Gen.gather_S100000x64_S1700000x1_S1700000x64_1_0_n_n_0_1_164_wf Gen.gather_S100000_S1700000x1_S1700000_n_0_n_n_0_1_1_wf
    (val_main_v16 (F := Ideal) x1) (gcolOf x1) (dcolOf x1) (scolOf x1) (val_main_v17 (F := Ideal) x0 x2)
    (val_main_v43 (F := Ideal)) (val_main_v41 (F := Ideal) x1) zero_1 (scale_1 x1) r c
  have hdv : (fun n => val_main_v16 (F := Ideal) x1 (ix1 n)) = dvOf x1 := rfl
  rw [hdv] at h
  exact (congrFun (scatterAdd_ideal _ _ _ _) _).trans h

/-- The layer's matrix product, entry by entry. -/
theorem prod_1 (x0 : (⟨S100000x64, .f32⟩ : BufTy).Contents (Elt Ideal)) (x2 : (⟨S64x64, .f32⟩ : BufTy).Contents (Elt Ideal)) :
    fn2 (val_main_v17 (F := Ideal) x0 x2) = product (fn2 (x0)) (fn2 x2) := by
  funext r c
  unfold product fn2
  beta_reduce
  rw [val_main_v17_apply]
  refine Finset.sum_congr rfl fun k _ => ?_
  have hl : lidx_main_v17 (ix2 r c) k = ix2 r k := funext fun a => match a with | ⟨0, _⟩ => rfl | ⟨1, _⟩ => rfl
  have hr : ridx_main_v17 (ix2 r c) k = ix2 k c := funext fun a => match a with | ⟨0, _⟩ => rfl | ⟨1, _⟩ => rfl
  rw [hl, hr]

/-- The layer before its rectifier: the weighted sum of the rows of the product, plus the bias. -/
theorem layer_1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) :
    fn2 (val_main_v48 (F := Ideal) x0 x1 x2 x3)
      = rLayer (dvOf x1) (gcolOf x1) (dcolOf x1) (scolOf x1) (fn2 (x0)) (fn2 x2) (fun q => x3 (ix1 q)) := by
  funext r c
  show val_main_v48 (F := Ideal) x0 x1 x2 x3 (ix2 r c)
    = weightedSum (dvOf x1) (gcolOf x1) (dcolOf x1) (scolOf x1) (product (fn2 (x0)) (fn2 x2)) r c + x3 (ix1 c)
  rw [val_main_v48_apply, Ideal.addf_def, agg_1, bias_1, prod_1]

/-- The rectifier's zero operand. -/
theorem zeroC_1 (i : S100000x64.Idx) : val_main_call1_v0 (F := Ideal) i = 0 := by
  rw [val_main_call1_v0_apply, val_main_call1_cst_apply, Ideal.ofBits_def, Ideal.ofBits_zero_f32]

/-- The layer's rectifier, entry by entry. -/
theorem act_1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) :
    fn2 (val_main_v49 (F := Ideal) x0 x1 x2 x3) = relu (fn2 (val_main_v48 (F := Ideal) x0 x1 x2 x3)) := by
  funext r c
  unfold relu fn2
  beta_reduce
  rw [val_main_v49_apply, Ideal.maximumf_def, zeroC_1]

/-! ## Layer 2 -/

/-- The matrix the rows are added into is zero. -/
theorem zero_2 (i : S100000x32.Idx) : val_main_v76 (F := Ideal) i = 0 := by
  rw [val_main_v76_apply, val_main_cst_16_apply, Ideal.ofBits_def, Ideal.ofBits_zero_f32]

/-- The factor of edge e, the same in every column: the weight read at its source times the weight read at its
    destination. -/
theorem scale_2 (x1 : (⟨S2x1600000, .i32⟩ : BufTy).Contents (Elt Ideal)) (e : Fin RR) (c : Fin 32) :
    val_main_v74 (F := Ideal) x1 (ix2 e c)
      = Host.gather (Cert.Lib.GatherVec.vecDims NN RR Gen.gather_S100000_S1700000x1_S1700000_n_0_n_n_0_1_1_wf) (val_main_v16 (F := Ideal) x1) (gcolOf x1) (ix1 e)
        * Host.gather (Cert.Lib.GatherVec.vecDims NN RR Gen.gather_S100000_S1700000x1_S1700000_n_0_n_n_0_1_1_wf) (val_main_v16 (F := Ideal) x1) (dcolOf x1) (ix1 e) := by
  rw [val_main_v74_apply, val_main_v66_apply, val_main_v65_apply, Ideal.mulf_def]
  have hi : idx_main_v66 (idx_main_v74 (ix2 e c)) = ix1 e := funext fun a => match a with | ⟨0, _⟩ => rfl
  rw [hi]
  unfold val_main_v57 val_main_v64
  rw [g56 x1, d63 x1, recV]

/-- The bias row, the same in every row. -/
theorem bias_2 (x5 : (⟨S32, .f32⟩ : BufTy).Contents (Elt Ideal)) (r : Fin NN) (c : Fin 32) :
    val_main_v80 (F := Ideal) x5 (ix2 r c) = x5 (ix1 c) := by
  rw [val_main_v80_apply, val_main_v79_apply]
  exact congrArg x5 (funext fun a => match a with | ⟨0, _⟩ => rfl)

/-- The scaled rows: the edge's factor times the row of the product read at the edge's source. -/
theorem upd_2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) :
    val_main_v75 (F := Ideal) x0 x1 x2 x3 x4
      = fun i => val_main_v74 (F := Ideal) x1 i
          * Host.gather (Cert.Lib.GatherRows.rowsDims NN RR 32 Gen.gather_S100000x32_S1700000x1_S1700000x32_1_0_n_n_0_1_132_wf) (val_main_v50 (F := Ideal) x0 x1 x2 x3 x4) (gcolOf x1) i := by
  unfold val_main_v75 val_main_v73
  rw [g72 x1, recG32]
  unfold Idealize.ShloMosaic.mulf
  funext i
  beta_reduce
  rw [Ideal.mulf_def]

/-- The layer's per-destination sum is the weighted sum of the rows of its matrix product. -/
theorem agg_2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (r : Fin NN) (c : Fin 32) :
    val_main_v78 (F := Ideal) x0 x1 x2 x3 x4 (ix2 r c)
      = weightedSum (dvOf x1) (gcolOf x1) (dcolOf x1) (scolOf x1) (fn2 (val_main_v50 (F := Ideal) x0 x1 x2 x3 x4)) r c := by
  unfold val_main_v78
  rw [s77 x1]
  rw [upd_2]
  rw [recS32]
  have h := scaled_scatter Gen.scatter_S100000x32_S1700000x1_S1700000x32_1_0_0_1_wf Gen.gather_S100000x32_S1700000x1_S1700000x32_1_0_n_n_0_1_132_wf Gen.gather_S100000_S1700000x1_S1700000_n_0_n_n_0_1_1_wf
    (val_main_v16 (F := Ideal) x1) (gcolOf x1) (dcolOf x1) (scolOf x1) (val_main_v50 (F := Ideal) x0 x1 x2 x3 x4)
    (val_main_v76 (F := Ideal)) (val_main_v74 (F := Ideal) x1) zero_2 (scale_2 x1) r c
  have hdv : (fun n => val_main_v16 (F := Ideal) x1 (ix1 n)) = dvOf x1 := rfl
  rw [hdv] at h
  exact (congrFun (scatterAdd_ideal _ _ _ _) _).trans h

/-- The layer's matrix product, entry by entry. -/
theorem prod_2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) :
    fn2 (val_main_v50 (F := Ideal) x0 x1 x2 x3 x4) = product (fn2 (val_main_v49 (F := Ideal) x0 x1 x2 x3)) (fn2 x4) := by
  funext r c
  unfold product fn2
  beta_reduce
  rw [val_main_v50_apply]
  refine Finset.sum_congr rfl fun k _ => ?_
  have hl : lidx_main_v50 (ix2 r c) k = ix2 r k := funext fun a => match a with | ⟨0, _⟩ => rfl | ⟨1, _⟩ => rfl
  have hr : ridx_main_v50 (ix2 r c) k = ix2 k c := funext fun a => match a with | ⟨0, _⟩ => rfl | ⟨1, _⟩ => rfl
  rw [hl, hr]

/-- The layer before its rectifier: the weighted sum of the rows of the product, plus the bias. -/
theorem layer_2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) :
    fn2 (val_main_v81 (F := Ideal) x0 x1 x2 x3 x4 x5)
      = rLayer (dvOf x1) (gcolOf x1) (dcolOf x1) (scolOf x1) (fn2 (val_main_v49 (F := Ideal) x0 x1 x2 x3)) (fn2 x4) (fun q => x5 (ix1 q)) := by
  funext r c
  show val_main_v81 (F := Ideal) x0 x1 x2 x3 x4 x5 (ix2 r c)
    = weightedSum (dvOf x1) (gcolOf x1) (dcolOf x1) (scolOf x1) (product (fn2 (val_main_v49 (F := Ideal) x0 x1 x2 x3)) (fn2 x4)) r c + x5 (ix1 c)
  rw [val_main_v81_apply, Ideal.addf_def, agg_2, bias_2, prod_2]

/-- The rectifier's zero operand. -/
theorem zeroC_2 (i : S100000x32.Idx) : val_main_call2_v0 (F := Ideal) i = 0 := by
  rw [val_main_call2_v0_apply, val_main_call2_cst_apply, Ideal.ofBits_def, Ideal.ofBits_zero_f32]

/-- The layer's rectifier, entry by entry. -/
theorem act_2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) :
    fn2 (val_main_v82 (F := Ideal) x0 x1 x2 x3 x4 x5) = relu (fn2 (val_main_v81 (F := Ideal) x0 x1 x2 x3 x4 x5)) := by
  funext r c
  unfold relu fn2
  beta_reduce
  rw [val_main_v82_apply, Ideal.maximumf_def, zeroC_2]

/-! ## Layer 3 -/

/-- The matrix the rows are added into is zero. -/
theorem zero_3 (i : S100000x2.Idx) : val_main_v109 (F := Ideal) i = 0 := by
  rw [val_main_v109_apply, val_main_cst_23_apply, Ideal.ofBits_def, Ideal.ofBits_zero_f32]

/-- The factor of edge e, the same in every column: the weight read at its source times the weight read at its
    destination. -/
theorem scale_3 (x1 : (⟨S2x1600000, .i32⟩ : BufTy).Contents (Elt Ideal)) (e : Fin RR) (c : Fin 2) :
    val_main_v107 (F := Ideal) x1 (ix2 e c)
      = Host.gather (Cert.Lib.GatherVec.vecDims NN RR Gen.gather_S100000_S1700000x1_S1700000_n_0_n_n_0_1_1_wf) (val_main_v16 (F := Ideal) x1) (gcolOf x1) (ix1 e)
        * Host.gather (Cert.Lib.GatherVec.vecDims NN RR Gen.gather_S100000_S1700000x1_S1700000_n_0_n_n_0_1_1_wf) (val_main_v16 (F := Ideal) x1) (dcolOf x1) (ix1 e) := by
  rw [val_main_v107_apply, val_main_v99_apply, val_main_v98_apply, Ideal.mulf_def]
  have hi : idx_main_v99 (idx_main_v107 (ix2 e c)) = ix1 e := funext fun a => match a with | ⟨0, _⟩ => rfl
  rw [hi]
  unfold val_main_v90 val_main_v97
  rw [g89 x1, d96 x1, recV]

/-- The bias row, the same in every row. -/
theorem bias_3 (x7 : (⟨S2, .f32⟩ : BufTy).Contents (Elt Ideal)) (r : Fin NN) (c : Fin 2) :
    val_main_v113 (F := Ideal) x7 (ix2 r c) = x7 (ix1 c) := by
  rw [val_main_v113_apply, val_main_v112_apply]
  exact congrArg x7 (funext fun a => match a with | ⟨0, _⟩ => rfl)

/-- The scaled rows: the edge's factor times the row of the product read at the edge's source. -/
theorem upd_3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) :
    val_main_v108 (F := Ideal) x0 x1 x2 x3 x4 x5 x6
      = fun i => val_main_v107 (F := Ideal) x1 i
          * Host.gather (Cert.Lib.GatherRows.rowsDims NN RR 2 Gen.gather_S100000x2_S1700000x1_S1700000x2_1_0_n_n_0_1_12_wf) (val_main_v83 (F := Ideal) x0 x1 x2 x3 x4 x5 x6) (gcolOf x1) i := by
  unfold val_main_v108 val_main_v106
  rw [g105 x1, recG2]
  unfold Idealize.ShloMosaic.mulf
  funext i
  beta_reduce
  rw [Ideal.mulf_def]

/-- The layer's per-destination sum is the weighted sum of the rows of its matrix product. -/
theorem agg_3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) (r : Fin NN) (c : Fin 2) :
    val_main_v111 (F := Ideal) x0 x1 x2 x3 x4 x5 x6 (ix2 r c)
      = weightedSum (dvOf x1) (gcolOf x1) (dcolOf x1) (scolOf x1) (fn2 (val_main_v83 (F := Ideal) x0 x1 x2 x3 x4 x5 x6)) r c := by
  unfold val_main_v111
  rw [s110 x1]
  rw [upd_3]
  rw [recS2]
  have h := scaled_scatter Gen.scatter_S100000x2_S1700000x1_S1700000x2_1_0_0_1_wf Gen.gather_S100000x2_S1700000x1_S1700000x2_1_0_n_n_0_1_12_wf Gen.gather_S100000_S1700000x1_S1700000_n_0_n_n_0_1_1_wf
    (val_main_v16 (F := Ideal) x1) (gcolOf x1) (dcolOf x1) (scolOf x1) (val_main_v83 (F := Ideal) x0 x1 x2 x3 x4 x5 x6)
    (val_main_v109 (F := Ideal)) (val_main_v107 (F := Ideal) x1) zero_3 (scale_3 x1) r c
  have hdv : (fun n => val_main_v16 (F := Ideal) x1 (ix1 n)) = dvOf x1 := rfl
  rw [hdv] at h
  exact (congrFun (scatterAdd_ideal _ _ _ _) _).trans h

/-- The layer's matrix product, entry by entry. -/
theorem prod_3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) :
    fn2 (val_main_v83 (F := Ideal) x0 x1 x2 x3 x4 x5 x6) = product (fn2 (val_main_v82 (F := Ideal) x0 x1 x2 x3 x4 x5)) (fn2 x6) := by
  funext r c
  unfold product fn2
  beta_reduce
  rw [val_main_v83_apply]
  refine Finset.sum_congr rfl fun k _ => ?_
  have hl : lidx_main_v83 (ix2 r c) k = ix2 r k := funext fun a => match a with | ⟨0, _⟩ => rfl | ⟨1, _⟩ => rfl
  have hr : ridx_main_v83 (ix2 r c) k = ix2 k c := funext fun a => match a with | ⟨0, _⟩ => rfl | ⟨1, _⟩ => rfl
  rw [hl, hr]

/-- The layer before its rectifier: the weighted sum of the rows of the product, plus the bias. -/
theorem layer_3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal)) :
    fn2 (val_main_v114 (F := Ideal) x0 x1 x2 x3 x4 x5 x6 x7)
      = rLayer (dvOf x1) (gcolOf x1) (dcolOf x1) (scolOf x1) (fn2 (val_main_v82 (F := Ideal) x0 x1 x2 x3 x4 x5)) (fn2 x6) (fun q => x7 (ix1 q)) := by
  funext r c
  show val_main_v114 (F := Ideal) x0 x1 x2 x3 x4 x5 x6 x7 (ix2 r c)
    = weightedSum (dvOf x1) (gcolOf x1) (dcolOf x1) (scolOf x1) (product (fn2 (val_main_v82 (F := Ideal) x0 x1 x2 x3 x4 x5)) (fn2 x6)) r c + x7 (ix1 c)
  rw [val_main_v114_apply, Ideal.addf_def, agg_3, bias_3, prod_3]

/-! ## The whole program -/

theorem ref_value (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal)) :
    val_main_v114 (F := Ideal) x0 x1 x2 x3 x4 x5 x6 x7
      = arr2 (refOut (dvOf x1) (gcolOf x1) (dcolOf x1) (scolOf x1) (fn2 x0) (fn2 x2) (fun q => x3 (ix1 q)) (fn2 x4) (fun q => x5 (ix1 q))
          (fn2 x6) (fun q => x7 (ix1 q))) := by
  refine (arr2_fn2 (val_main_v114 (F := Ideal) x0 x1 x2 x3 x4 x5 x6 x7)).symm.trans (congrArg arr2 ?_)
  rw [layer_3, act_2, layer_2, act_1, layer_1]
  rfl

end Cert.Hand.Ref

end
-- ==== Proof.KHost.lean ====
/-
  What the idealized kernel's host operations compute before its first region, as functions of the edge list.

  From the edge list x1 : [2, 1600000] of 32-bit words: the source and destination word of every edge, the given
  edges followed by one self loop per node (srcK, dstK); the destination column used for the per-destination sums
  (scolK: the raw words) and the source column used for reading rows (gcolK: a negative word is shifted up by the
  number of nodes); the degree of every node as the sum of ones over the edges that land there (degK); the per-node
  weight dvK = rsqrt (max deg 1) where deg > 0, else 0, and the same as a column (dv2K). Stated for any float values.
-/
import proofs.«106068_j19585050869931_2_alg».proof.Proof.Gen.KernelIdeal
import proofs.«106068_j19585050869931_2_alg».proof.Proof.LibCatPair

noncomputable section

namespace Cert.Hand.K

open Cert.KernelIdeal Cert.KernelIdeal.Facts₀ Cert.KernelIdeal.Facts Idealize.ShloMosaic Cert.Lib.CatPair

variable (F : FTy → Type) [FloatOps F]

/-- The edge list's words. -/
abbrev Edges := (⟨S2x1600000, .i32⟩ : BufTy).Contents (Elt F)

/-- The source word of every edge: row 0 of the edge list, then one self loop per node. -/
def srcK (x1 : Edges F) : (⟨S1700000, .i32⟩ : BufTy).Contents (Elt F) :=
  catPair S1700000 0 S1600000 S100000
    (shapeCast S1600000 (extractStridedSlice S1x1600000 ![0, 0] x1 slices_S2x1600000_S1x1600000_0_0) shapeCasts_S1x1600000_S1600000)
    (iotaInDim S100000 32 0) concatenates_S1600000_S100000_S1700000_d0

/-- The destination word of every edge: row 1 of the edge list, then one self loop per node. -/
def dstK (x1 : Edges F) : (⟨S1700000, .i32⟩ : BufTy).Contents (Elt F) :=
  catPair S1700000 0 S1600000 S100000
    (shapeCast S1600000 (extractStridedSlice S1x1600000 ![1, 0] x1 slices_S2x1600000_S1x1600000_1_0) shapeCasts_S1x1600000_S1600000)
    (iotaInDim S100000 32 0) concatenates_S1600000_S100000_S1700000_d0

/-- The destination column for the per-destination sums: the raw words. -/
def scolK (x1 : Edges F) : (⟨S1700000x1, .i32⟩ : BufTy).Contents (Elt F) :=
  broadcastInDim S1700000x1 ![0] bcast_S1700000_S1700000x1_0 (dstK F x1)

/-- The source column for reading rows: a negative word is shifted up by the number of nodes. -/
def gcolK (x1 : Edges F) : (⟨S1700000x1, .i32⟩ : BufTy).Contents (Elt F) :=
  broadcastInDim S1700000x1 ![0] bcast_S1700000_S1700000x1_0
    (select (cmpi .slt (srcK F x1) (broadcastInDim S1700000 ![] bcast_S_S1700000 (constantI S_ 32 0#32)))
      (addi (srcK F x1) (broadcastInDim S1700000 ![] bcast_S_S1700000 (constantI S_ 32 100000#32))) (srcK F x1))

/-- Every node's degree: the sum of ones over the edges that land at it. -/
def degK (x1 : Edges F) : (⟨S100000, .f32⟩ : BufTy).Contents (Elt F) :=
  Host.scatterAdd scatter_S100000_S1700000x1_S1700000_n_0_0_1
    (broadcastInDim S100000 ![] bcast_S_S100000 (constant (F := F) S_ .f32 0x00000000#32)) (scolK F x1)
    (broadcastInDim S1700000 ![] bcast_S_S1700000 (constant (F := F) S_ .f32 0x3F800000#32))

/-- The per-node weight: rsqrt (max deg 1) where deg > 0, else 0. -/
def dvK (x1 : Edges F) : (⟨S100000, .f32⟩ : BufTy).Contents (Elt F) :=
  select (cmpf (F := F) .ogt (degK F x1) (broadcastInDim S100000 ![] bcast_S_S100000 (constant (F := F) S_ .f32 0x00000000#32)))
    (Host.rsqrt (maximumf (degK F x1) (broadcastInDim S100000 ![] bcast_S_S100000 (constant (F := F) S_ .f32 0x3F800000#32))))
    (broadcastInDim S100000 ![] bcast_S_S100000 (id (constant (F := F) S_ .f32 0x00000000#32)))

/-- The per-node weight as a column. -/
def dv2K (x1 : Edges F) : (⟨S100000x1, .f32⟩ : BufTy).Contents (Elt F) :=
  shapeCast S100000x1 (dvK F x1) shapeCasts_S100000_S100000x1

end Cert.Hand.K

end
-- ==== Proof.KChain1.lean ====
/-
  The buffers the idealized kernel's later stages read, followed through the program's segments.

  The program is nine segments: three stretches of host operations, region 0, a stretch, region 1, a stretch, region 2, a
  last stretch. A host stretch changes only the buffers its operations write; a region changes only its output array
  (an input window's array and every buffer that is not one of its windows are left as entered). So the edge list's
  two word vectors, the per-node weight column and the argument arrays keep, at every later segment boundary, the
  contents they had after the first three stretches; and each stretch's new buffers are its operations applied to what
  the boundary before it holds. Stated for any float values.
-/
import proofs.«106068_j19585050869931_2_alg».proof.Proof.Gen.KernelIdeal.Frame
import proofs.«106068_j19585050869931_2_alg».proof.Proof.KHost

set_option maxRecDepth 16384

noncomputable section

namespace Cert.Hand.K

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg) (c : Dev nD)

/-- Closes `after ops V b = V b` for a buffer b that no operation of the stretch writes. -/
macro "kept_by_stretch" : tactic => `(tactic| (
  refine StableHlo.after_of_forall_not_mem (b := _) _ _ (List.forall_iff_forall_mem.mp ?_)
  simp only [hostOps0, hostOps0_1, hostOps0_2, hostOps1, hostOps2, hostOps3, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- Reads a buffer after the first three stretches off the launch memory. -/
macro "read_first_stretches" : tactic => `(tactic| (
  show StableHlo.after hostOps0_2 (StableHlo.after hostOps0_1 (StableHlo.after hostOps0 (W0 _ _ _))) _ = _
  after_results_simp
  try simp only [Cert.Lib.CatPair.concatenate_pair_eq]
  try after_results_simp
  try rfl))

/-! ## At region 0's entry -/

theorem W3_src : W3 m ρ c (Proc.devRef .tc main_v3) = srcK F (m ((c : Thread nD τ).loc main_arg1)) := by
  read_first_stretches
theorem W3_dst : W3 m ρ c (Proc.devRef .tc main_v6) = dstK F (m ((c : Thread nD τ).loc main_arg1)) := by
  read_first_stretches
theorem W3_dv : W3 m ρ c (Proc.devRef .tc main_v17) = dv2K F (m ((c : Thread nD τ).loc main_arg1)) := by
  read_first_stretches
theorem W3_arg0 : W3 m ρ c (Proc.devRef .tc main_arg0) = m ((c : Thread nD τ).loc main_arg0) := by
  read_first_stretches
theorem W3_arg2 : W3 m ρ c (Proc.devRef .tc main_arg2) = m ((c : Thread nD τ).loc main_arg2) := by
  read_first_stretches
theorem W3_arg3 : W3 m ρ c (Proc.devRef .tc main_arg3) = m ((c : Thread nD τ).loc main_arg3) := by
  read_first_stretches
theorem W3_arg4 : W3 m ρ c (Proc.devRef .tc main_arg4) = m ((c : Thread nD τ).loc main_arg4) := by
  read_first_stretches
theorem W3_arg5 : W3 m ρ c (Proc.devRef .tc main_arg5) = m ((c : Thread nD τ).loc main_arg5) := by
  read_first_stretches
theorem W3_arg6 : W3 m ρ c (Proc.devRef .tc main_arg6) = m ((c : Thread nD τ).loc main_arg6) := by
  read_first_stretches
theorem W3_arg7 : W3 m ρ c (Proc.devRef .tc main_arg7) = m ((c : Thread nD τ).loc main_arg7) := by
  read_first_stretches

/-! ## At region 0's exit: only its output array has changed -/

theorem W4_src : W4 m ρ c (Proc.devRef .tc main_v3) = srcK F (m ((c : Thread nD τ).loc main_arg1)) :=
  (W4_of_ne m ρ c main_v3 (by decide)).trans (W3_src m ρ c)
theorem W4_dst : W4 m ρ c (Proc.devRef .tc main_v6) = dstK F (m ((c : Thread nD τ).loc main_arg1)) :=
  (W4_of_ne m ρ c main_v6 (by decide)).trans (W3_dst m ρ c)
theorem W4_dv : W4 m ρ c (Proc.devRef .tc main_v17) = dv2K F (m ((c : Thread nD τ).loc main_arg1)) :=
  (W4_arr m ρ c 1).trans ((((dat0 (V3 m ρ) c).arrAt_in 1 rfl _).trans (A_eq0 (V3 m ρ) c 1)).trans (W3_dv m ρ c))
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)

/-! ## At region 1's entry: the stretch between regions 0 and 1 -/

theorem W5_src : W5 m ρ c (Proc.devRef .tc main_v3) = srcK F (m ((c : Thread nD τ).loc main_arg1)) :=
  (by kept_by_stretch : W5 m ρ c (Proc.devRef .tc main_v3) = W4 m ρ c (Proc.devRef .tc main_v3)).trans (W4_src m ρ c)
theorem W5_dst : W5 m ρ c (Proc.devRef .tc main_v6) = dstK F (m ((c : Thread nD τ).loc main_arg1)) :=
  (by kept_by_stretch : W5 m ρ c (Proc.devRef .tc main_v6) = W4 m ρ c (Proc.devRef .tc main_v6)).trans (W4_dst m ρ c)
theorem W5_dv : W5 m ρ c (Proc.devRef .tc main_v17) = dv2K F (m ((c : Thread nD τ).loc main_arg1)) :=
  (by kept_by_stretch : W5 m ρ c (Proc.devRef .tc main_v17) = W4 m ρ c (Proc.devRef .tc main_v17)).trans (W4_dv m ρ c)
theorem W5_arg4 : W5 m ρ c (Proc.devRef .tc main_arg4) = m ((c : Thread nD τ).loc main_arg4) :=
  (by kept_by_stretch : W5 m ρ c (Proc.devRef .tc main_arg4) = W4 m ρ c (Proc.devRef .tc main_arg4)).trans (W4_arg4 m ρ c)
theorem W5_arg5 : W5 m ρ c (Proc.devRef .tc main_arg5) = m ((c : Thread nD τ).loc main_arg5) :=
  (by kept_by_stretch : W5 m ρ c (Proc.devRef .tc main_arg5) = W4 m ρ c (Proc.devRef .tc main_arg5)).trans (W4_arg5 m ρ c)
theorem W5_arg6 : W5 m ρ c (Proc.devRef .tc main_arg6) = m ((c : Thread nD τ).loc main_arg6) :=
  (by kept_by_stretch : W5 m ρ c (Proc.devRef .tc main_arg6) = W4 m ρ c (Proc.devRef .tc main_arg6)).trans (W4_arg6 m ρ c)
theorem W5_arg7 : W5 m ρ c (Proc.devRef .tc main_arg7) = m ((c : Thread nD τ).loc main_arg7) :=
  (by kept_by_stretch : W5 m ρ c (Proc.devRef .tc main_arg7) = W4 m ρ c (Proc.devRef .tc main_arg7)).trans (W4_arg7 m ρ c)

/-- The bias of layer 2's input, as a row. -/
theorem W5_bias : W5 m ρ c (Proc.devRef .tc main_v29)
    = shapeCast S1x64 (m ((c : Thread nD τ).loc main_arg3)) shapeCasts_S64_S1x64 := by
  show StableHlo.after hostOps1 (W4 m ρ c) (Proc.devRef .tc main_v29) = _
  after_results_simp
  rw [W4_arg3]
  rfl

/-- The raw neighbourhood sums of layer 1: region 0's output array read along the edges and summed per destination. -/
theorem W5_sums : W5 m ρ c (Proc.devRef .tc main_v28)
    = Host.scatterAdd scatter_S100000x64_S1700000x1_S1700000x64_1_0_0_1
        (broadcastInDim S100000x64 ![] bcast_S_S100000x64 (constant (F := F) S_ .f32 0x00000000#32))
        (scolK F (m ((c : Thread nD τ).loc main_arg1)))
        (Host.gather gather_S100000x64_S1700000x1_S1700000x64_1_0_n_n_0_1_164 (W4 m ρ c (Proc.devRef .tc main_v18))
          (gcolK F (m ((c : Thread nD τ).loc main_arg1)))) := by
  show StableHlo.after hostOps1 (W4 m ρ c) (Proc.devRef .tc main_v28) = _
  after_results_simp
  rw [W4_src, W4_dst]
  rfl

end Cert.Hand.K

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.Region0.lean ====
/-
  The first dense stage of the graph convolution, as one array.

  The node matrix x has 100000 rows and 64 columns and is cut into 20 blocks of 5000 consecutive rows. For block t the
  stage reads rows 5000 t … 5000 t + 4999 of x, the same rows of the per-node weight column dv, and the whole 64 × 64
  weight matrix W, and writes rows 5000 t … 5000 t + 4999 of the result: entry (p, q) of the written block is
  dv (p) · ∑ k, x (p, k) · W (k, q), the products and the sum taken in the extended reals (a change of number format is
  the identity there, and the sum is accumulated from zero). The 20 blocks of rows tile the result, so once every block
  is written the result at (r, c) is  dv r · ∑ k, x r k · W k c  for every row r and column c.
-/
import proofs.«106068_j19585050869931_2_alg».proof.Proof.Gen.KernelIdeal.Frame
import proofs.«106068_j19585050869931_2_alg».proof.Proof.Stages
import proofs.«106068_j19585050869931_2_alg».proof.Proof.LibDotRows
import proofs.«106068_j19585050869931_2_alg».proof.Proof.LibColumns
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Hand.Region0

open Cert.KernelIdeal Cert.KernelIdeal.Gen Idealize.ShloMosaic Idealize.ShloMosaic.ValueIdx Idealize.ShloMosaic.TcCoe
open Idealize.SL.Sem Cert.Hand
open Idealize.ShloMosaic.Pipeline (Dat)
open scoped BigOperators

/-! ## One entry of a written block -/

/-- Row p of the left factor against column q of the right factor: the contraction over the shared axis of 64 is the
    sum over k of left (p, k) · right (k, q). -/
theorem contraction_entry (l : FVec Ideal S5000x64 .bf16) (r : FVec Ideal S64x64 .bf16) (p : Fin 5000) (q : Fin 64) :
    ∑ c : dot_S5000x64_S64x64_S5000x64_1_0_0_1_n_n.contr.Idx,
        l (dot_S5000x64_S64x64_S5000x64_1_0_0_1_n_n.lhsIdx (ix2 p q) c) * r (dot_S5000x64_S64x64_S5000x64_1_0_0_1_n_n.rhsIdx (ix2 p q) c)
      = ∑ k : Fin 64, l (ix2 p k) * r (ix2 k q) := by
  dot_rows dot_S5000x64_S64x64_S5000x64_1_0_0_1_n_n S5000x64 S64x64 64

/-- Entry (p, q) of the block the stage writes from a block x0 of x, the matching block x1 of the weight column and the
    weight matrix x2: the column's entry of row p times the contraction of row p of x0 with column q of x2. The column is
    broadcast along the second axis, both factors change number format (the identity on extended reals), and the product
    accumulates into zero. -/
theorem block_entry (x0 : Vec Ideal S5000x64 .f32) (x1 : Vec Ideal S5000x1 .f32) (x2 : Vec Ideal S64x64 .f32)
    (p : Fin 5000) (q : Fin 64) :
    k0_pay1 (F := Ideal) x0 x2 x1 (ix2 p q) = x1 (ix2 p (0 : Fin 1)) * ∑ k : Fin 64, x0 (ix2 p k) * x2 (ix2 k q) := by
  unfold k0_pay1
  show mulf (F := Ideal) (broadcastTo S5000x64 (shapeCast S5000x1 x1 shapeCasts_S5000x1_S5000x1) broadcasts_S5000x1_S5000x64)
      (matmul (F := Ideal) dot_S5000x64_S64x64_S5000x64_1_0_0_1_n_n none (truncf (F := Ideal) .bf16 x0 bitsLt_bf16_f32)
        (truncf (F := Ideal) .bf16 x2 bitsLt_bf16_f32) (constant (F := Ideal) S5000x64 .f32 0x00000000#32)) (ix2 p q) = _
  rw [mulf_apply, Cert.Columns.broadcastTo_a1_ab_apply, shapeCast_self]
  simp only [matmul]
  rw [Ideal.matmul_constant_zero_apply]
  exact congrArg (fun s : EReal => (x1 (ix2 p (0 : Fin 1)) : EReal) * s)
    (contraction_entry (truncf (F := Ideal) .bf16 x0 bitsLt_bf16_f32) (truncf (F := Ideal) .bf16 x2 bitsLt_bf16_f32) p q)

/-! ## Which rows each block holds -/

/-- The zero offset of a whole block inside its buffer. -/
theorem zero_offset : (![0, 0] : Fin 2 → Nat) = fun _ => 0 := funext fun a => by fin_cases a <;> rfl

/-- The block numbers at grid point t, decided over the 20 points: the blocks of x and of the weight column are the
    result's block of rows, one of the 20; the weight matrix is always its one block; no block moves along columns. -/
theorem block_numbers : ∀ t : Fin cfg0.N,
    win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (0 : Fin 2) ≤ 19
    ∧ win0_3.index t (1 : Fin 2) = 0 :=
  (by decide +kernel : ∀ t : Fin grid0.N, _)

/-- Every one of the 20 blocks of rows is some grid point's. -/
theorem block_onto : ∀ b : Fin 20, ∃ t : Fin cfg0.N, win0_3.index t (0 : Fin 2) = b.val :=
  (by decide +kernel : ∀ b : Fin 20, ∃ t : Fin grid0.N, win0_3.index t (0 : Fin 2) = b.val)

/-! ## What a grid point writes back -/

/-- The stage's result as one array: dv r · ∑ k, x r k · W k c at (r, c). -/
abbrev result (V : (c : Dev nD) → (b : Ref sig .tc) → Buf (Elt Ideal) ((c : Thread nD τ).loc b)) (c : Dev nD) :
    S100000x64.Idx → EReal :=
  arr2 (scaledProduct (colOf (V c main_v17)) (fn2 (V c main_arg0)) (fn2 (V c main_arg2)))

/-- Grid point t writes back its block of rows of the result array. Entry (p, q) of what the stage leaves there is the
    block entry of the three blocks read at t. With b the point's block number, row p of the blocks of x and of the
    weight column is row 5000 b + p of the whole arrays, column k of a block is column k, and the weight matrix's block
    is the whole matrix; entry (p, q) of the result's block is entry (5000 b + p, q) of the result array. -/
theorem flushed_eq (V : (c : Dev nD) → (b : Ref sig .tc) → Buf (Elt Ideal) ((c : Thread nD τ).loc b)) (c : Dev nD)
    (t : Fin cfg0.N) :
    (dat0 (F := Ideal) V c).flushed 3 t = ((cfg0.win 3).blk t).view.read (Elt Ideal) (result V c) := by
  show (cfg0.win 3).cut (grid0.coords t) ((dat0 (F := Ideal) V c).after 3 t) = _
  rw [after0_3]
  unfold out0_3
  rw [View.canon_unit_zero zero_offset]
  simp only [View.ld_unit_zero (S := S5000x64) zero_offset, View.ld_unit_zero (S := S64x64) zero_offset,
    View.ld_unit_zero (S := S5000x1) zero_offset]
  obtain ⟨e00, e01, e10, e11, e20, e21, e30, e31⟩ := block_numbers t
  funext j
  obtain ⟨p, q, rfl⟩ : ∃ (p : Fin 5000) (q : Fin 64), j = ix2 p q := ⟨j 0, j 1, eq_ix2 j⟩
  refine (block_entry (iblk0 V c 0 t) (iblk0 V c 1 t) (iblk0 V c 2 t) p q).trans ?_
  have hr : win0_3.index t (0 : Fin 2) * 5000 + 1 * p.val < 100000 := by have := p.isLt; omega
  -- the row of the whole arrays that row p of block t is
  obtain ⟨r, hrv⟩ : ∃ r : Fin 100000, r.val = win0_3.index t (0 : Fin 2) * 5000 + 1 * p.val := ⟨⟨_, hr⟩, rfl⟩
  have h1 : ((cfg0.win 1).blk t).view.emb (ix2 p (0 : Fin 1)) = ix2 r (0 : Fin 1) := by
    funext a; apply Fin.ext
    match a with
    | ⟨0, _⟩ => show win0_1.index t (0 : Fin 2) * 5000 + 1 * p.val = r.val; omega
    | ⟨1, _⟩ => show win0_1.index t (1 : Fin 2) * 1 + 1 * 0 = 0; omega
  have h0 : ∀ k : Fin 64, ((cfg0.win 0).blk t).view.emb (ix2 p k) = ix2 r k := fun k => by
    funext a; apply Fin.ext
    match a with
    | ⟨0, _⟩ => show win0_0.index t (0 : Fin 2) * 5000 + 1 * p.val = r.val; omega
    | ⟨1, _⟩ => show win0_0.index t (1 : Fin 2) * 64 + 1 * k.val = k.val; omega
  have h2 : ∀ k : Fin 64, ((cfg0.win 2).blk t).view.emb (ix2 k q) = ix2 k q := fun k => by
    funext a; apply Fin.ext
    match a with
    | ⟨0, _⟩ => show win0_2.index t (0 : Fin 2) * 64 + 1 * k.val = k.val; omega
    | ⟨1, _⟩ => show win0_2.index t (1 : Fin 2) * 64 + 1 * q.val = q.val; omega
  have h3 : ((cfg0.win 3).blk t).view.emb (ix2 p q) = ix2 r q := by
    funext a; apply Fin.ext
    match a with
    | ⟨0, _⟩ => show win0_3.index t (0 : Fin 2) * 5000 + 1 * p.val = r.val; omega
    | ⟨1, _⟩ => show win0_3.index t (1 : Fin 2) * 64 + 1 * q.val = q.val; omega
  have a1 : iblk0 V c 1 t (ix2 p (0 : Fin 1)) = V c main_v17 (ix2 r (0 : Fin 1)) := congrArg (V c main_v17) h1
  have a0 : ∀ k : Fin 64, iblk0 V c 0 t (ix2 p k) = V c main_arg0 (ix2 r k) := fun k => congrArg (V c main_arg0) (h0 k)
  have a2 : ∀ k : Fin 64, iblk0 V c 2 t (ix2 k q) = V c main_arg2 (ix2 k q) := fun k => congrArg (V c main_arg2) (h2 k)
  have a3 : ((cfg0.win 3).blk t).view.read (Elt Ideal) (result V c) (ix2 p q) = result V c (ix2 r q) :=
    congrArg (result V c) h3
  refine Eq.trans ?_ a3.symm
  exact congrArg₂ (fun (a b : EReal) => a * b) a1
    (Finset.sum_congr rfl fun k _ => congrArg₂ (fun (a b : EReal) => a * b) (a0 k) (a2 k))

/-! ## The blocks tile the array -/

/-- An index of the result array is in grid point t's block exactly when each coordinate is in the block's range on its
    axis: rows 5000 b … 5000 b + 4999 for the point's block number b, and all 64 columns. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v18).slice (win0_3.rect t)).set ↔ _
  rw [View.set_slice_whole, Rect.mem_set_unit]
  exact Iff.rfl

/-- Every index of the result array is in the block of a grid point that writes back: row r is in block r / 5000. -/
theorem covered (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  obtain ⟨t, ht⟩ := block_onto ⟨(i 0).val / 5000, by omega⟩
  have hb : win0_3.index t (0 : Fin 2) = (i 0).val / 5000 := ht
  obtain ⟨e00, e01, e10, e11, e20, e21, e30, e31⟩ := block_numbers t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-! ## The array after all 20 grid points -/

/-- After the stage has run over its whole grid the result array holds, at (r, c), the weight of row r times the
    contraction of row r of x with column c of the weight matrix: every grid point writes back its block of that one
    array, and the blocks cover it. -/
theorem value (V : (c : Dev nD) → (b : Ref sig .tc) → Buf (Elt Ideal) ((c : Thread nD τ).loc b)) (c : Dev nD) :
    (dat0 (F := Ideal) V c).arrAt 3 cfg0.N
      = arr2 (scaledProduct (colOf (V c main_v17)) (fn2 (V c main_arg0)) (fn2 (V c main_arg2))) :=
  (dat0 (F := Ideal) V c).arrAt_eq_of_cover 3 (result V c) (fun t _ => flushed_eq V c t) covered

end Cert.Hand.Region0

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.Region1.lean ====
/-
  The array region 1 leaves in its output, entry by entry over the extended reals.

  The region runs over 20 grid points. Point t is handed rows 5000·t … 5000·t + 4999 of the raw neighbourhood sums
  A ([100000, 64]) and of the per-node weight column dv ([100000, 1]), the whole bias row b ([1, 64]) and the whole
  weight matrix W ([64, 32]); it writes rows 5000·t … 5000·t + 4999 of the output ([100000, 32]).
  Entry (p, q) of the block it writes is
      dv p · ∑ k, max (dv p · A (p, k) + b k) 0 · W (k, q)
  with p a row of the block: the row scale, the bias and the rectifier are entrywise, the change of float format is
  the identity on the extended reals, and the matrix product accumulates into zero, so it is the plain sum over the
  contraction index.
  The row blocks of A and dv move with the output's row block; b and W stay at block (0, 0). So the block written
  at point t is the restriction to rows 5000·t … of ONE function of the whole arrays, and the 20 row blocks cover
  every row: the output array ends holding that function, which is the scaled product of the activation with W.
-/
import proofs.«106068_j19585050869931_2_alg».proof.Proof.Gen.KernelIdeal.Frame
import proofs.«106068_j19585050869931_2_alg».proof.Proof.Stages
import proofs.«106068_j19585050869931_2_alg».proof.Proof.LibDotRows
import proofs.«106068_j19585050869931_2_alg».proof.Proof.LibColumns
import proofs.«106068_j19585050869931_2_alg».proof.Proof.LibRowBroadcast
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Hand.Region1

open Cert.KernelIdeal Cert.KernelIdeal.Gen Idealize.ShloMosaic Idealize.ShloMosaic.ValueIdx Idealize.ShloMosaic.TcCoe
open Idealize.SL.Sem Cert.Hand
open Idealize.ShloMosaic.Pipeline (Dat)
open scoped BigOperators

/-! ## The body's payload at an entry -/

/-- The matrix product's contraction at the output entry (p, q): the sum over k of left (p, k) times right (k, q). -/
theorem contraction (l : FVec Ideal S5000x64 .bf16) (r : FVec Ideal S64x32 .bf16) (p : Fin 5000) (q : Fin 32) :
    ∑ c : dot_S5000x64_S64x32_S5000x32_1_0_0_1_n_n.contr.Idx,
        l (dot_S5000x64_S64x32_S5000x32_1_0_0_1_n_n.lhsIdx (ix2 p q) c) * r (dot_S5000x64_S64x32_S5000x32_1_0_0_1_n_n.rhsIdx (ix2 p q) c)
      = ∑ k : Fin 64, l (ix2 p k) * r (ix2 k q) := by
  dot_rows dot_S5000x64_S64x32_S5000x32_1_0_0_1_n_n S5000x64 S64x32 64

/-- Entry (p, q) of the stored block, from the loaded blocks: the weight column v0 = v16, the sums v2, the bias row v6,
    the weight matrix v13. The column and the row are broadcast along the other axis, the casts to the same shape and
    the change of float format are the identity, the constant the rectifier compares with is 0, and the product
    accumulates into the zero constant. -/
theorem payload_apply (v0 v16 : Vec Ideal S5000x1 .f32) (v2 : Vec Ideal S5000x64 .f32) (v6 : Vec Ideal S1x64 .f32)
    (v13 : Vec Ideal S64x32 .f32) (p : Fin 5000) (q : Fin 32) :
    k1_pay1 (F := Ideal) v0 v2 v6 v13 v16 (ix2 p q)
      = v16 (ix2 p (0 : Fin 1))
          * ∑ k : Fin 64, max (v0 (ix2 p (0 : Fin 1)) * v2 (ix2 p k) + v6 (ix2 (0 : Fin 1) k)) 0 * v13 (ix2 k q) := by
  unfold k1_pay1
  rw [mulf_apply, Cert.Columns.broadcastTo_a1_ab_apply, shapeCast_self]
  refine congrArg (v16 (ix2 p (0 : Fin 1)) * ·) ?_
  refine (Ideal.matmul_constant_zero_apply dot_S5000x64_S64x32_S5000x32_1_0_0_1_n_n none _ _ (ix2 p q)).trans ?_
  refine (contraction _ _ p q).trans ?_
  refine Finset.sum_congr rfl fun k _ => ?_
  rw [truncf_apply, truncf_apply, maximumf_apply, addf_apply, mulf_apply, broadcast_apply,
    Cert.Columns.broadcastTo_a1_ab_apply, Cert.RowBroadcast.broadcastTo_1b_ab_apply, shapeCast_self, shapeCast_self,
    shapeCast_self]
  show max _ (Ideal.ofBits .f32 0x00000000#32) * _ = _
  rw [Ideal.ofBits_zero_f32]

/-! ## The windows' block indices over the grid -/

theorem zero_offsets : (![0, 0] : Fin 2 → Nat) = fun _ => 0 := funext fun a => by fin_cases a <;> rfl

/-- The block indices, decided over the 20 points: the sums' and the weight column's row block is the output's, which
    is the point's number; every column block is 0; the bias row and the weight matrix stay at block (0, 0). -/
theorem index_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 19 ∧ win1_4.index t (1 : Fin 2) = 0 :=
  (by decide +kernel : ∀ t : Fin grid1.N, _)

/-- Every one of the 20 row blocks of the output is some point's. -/
theorem index_onto : ∀ b : Fin 20, ∃ t : Fin cfg1.N, win1_4.index t (0 : Fin 2) = b.val :=
  (by decide +kernel : ∀ b : Fin 20, ∃ t : Fin grid1.N, win1_4.index t (0 : Fin 2) = b.val)

/-! ## The input blocks at a point, as entries of the whole arrays -/

section Blocks

variable (V : (c : Dev nD) → (b : Ref sig .tc) → Buf (Elt Ideal) ((c : Thread nD τ).loc b))

/-- Row p of the sums' block at point t is row r of the sums, r = 5000 · (the output's row block) + p. -/
theorem read_sums (c : Dev nD) (t : Fin cfg1.N) (p : Fin 5000) (k : Fin 64) (r : Fin 100000)
    (hr : r.val = win1_4.index t (0 : Fin 2) * 5000 + p.val) :
    (iblk1 (F := Ideal) V c 0 t : Vec Ideal S5000x64 .f32) (ix2 p k)
      = (V c main_v28 : S100000x64.Idx → EReal) (ix2 r k) := by
  obtain ⟨e00, e01, -⟩ := index_facts t
  show (V c main_v28 : S100000x64.Idx → EReal) (((cfg1.win 0).blk t).view.emb (ix2 p k)) = _
  refine congrArg (V c main_v28 : S100000x64.Idx → EReal) ?_
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- Row p of the weight column's block at point t is row r of the column. -/
theorem read_weight (c : Dev nD) (t : Fin cfg1.N) (p : Fin 5000) (r : Fin 100000)
    (hr : r.val = win1_4.index t (0 : Fin 2) * 5000 + p.val) :
    (iblk1 (F := Ideal) V c 1 t : Vec Ideal S5000x1 .f32) (ix2 p (0 : Fin 1))
      = (V c main_v17 : S100000x1.Idx → EReal) (ix2 r (0 : Fin 1)) := by
  obtain ⟨-, -, e10, e11, -⟩ := index_facts t
  show (V c main_v17 : S100000x1.Idx → EReal) (((cfg1.win 1).blk t).view.emb (ix2 p (0 : Fin 1))) = _
  refine congrArg (V c main_v17 : S100000x1.Idx → EReal) ?_
  funext a; apply Fin.ext
  match a with
  | ⟨0, _⟩ => show win1_1.index t (0 : Fin 2) * 5000 + 1 * p.val = r.val; omega
  | ⟨1, _⟩ => show win1_1.index t (1 : Fin 2) * 1 + 1 * 0 = 0; omega

/-- The bias row's block at every point is the whole row. -/
theorem read_bias (c : Dev nD) (t : Fin cfg1.N) (k : Fin 64) :
    (iblk1 (F := Ideal) V c 2 t : Vec Ideal S1x64 .f32) (ix2 (0 : Fin 1) k)
      = (V c main_v29 : S1x64.Idx → EReal) (ix2 (0 : Fin 1) k) := by
  obtain ⟨-, -, -, -, e20, e21, -⟩ := index_facts t
  show (V c main_v29 : S1x64.Idx → EReal) (((cfg1.win 2).blk t).view.emb (ix2 (0 : Fin 1) k)) = _
  refine congrArg (V c main_v29 : S1x64.Idx → EReal) ?_
  funext a; apply Fin.ext
  match a with
  | ⟨0, _⟩ => show win1_2.index t (0 : Fin 2) * 1 + 1 * 0 = 0; omega
  | ⟨1, _⟩ => show win1_2.index t (1 : Fin 2) * 64 + 1 * k.val = k.val; omega

/-- The weight matrix's block at every point is the whole matrix. -/
theorem read_matrix (c : Dev nD) (t : Fin cfg1.N) (k : Fin 64) (q : Fin 32) :
    (iblk1 (F := Ideal) V c 3 t : Vec Ideal S64x32 .f32) (ix2 k q)
      = (V c main_arg4 : S64x32.Idx → EReal) (ix2 k q) := by
  obtain ⟨-, -, -, -, -, -, e30, e31, -⟩ := index_facts t
  show (V c main_arg4 : S64x32.Idx → EReal) (((cfg1.win 3).blk t).view.emb (ix2 k q)) = _
  refine congrArg (V c main_arg4 : S64x32.Idx → EReal) ?_
  funext a; apply Fin.ext
  match a with
  | ⟨0, _⟩ => show win1_3.index t (0 : Fin 2) * 64 + 1 * k.val = k.val; omega
  | ⟨1, _⟩ => show win1_3.index t (1 : Fin 2) * 32 + 1 * q.val = q.val; omega

/-! ## The block a point writes back, and the array -/

/-- The whole output as one function of the arrays the region finds: the scaled product of the activation with W. -/
abbrev whole (c : Dev nD) : S100000x32.Idx → EReal :=
  arr2 (scaledProduct (colOf (V c main_v17 : S100000x1.Idx → EReal))
    (activation (colOf (V c main_v17 : S100000x1.Idx → EReal)) (fn2 (V c main_v28 : S100000x64.Idx → EReal))
      (rowOf (V c main_v29 : S1x64.Idx → EReal)))
    (fn2 (V c main_arg4 : S64x32.Idx → EReal)))

/-- Entry j of the payload of the input blocks at point t is the whole output's entry at j's place in the array. -/
theorem entry_eq (c : Dev nD) (t : Fin cfg1.N) (j : S5000x32.Idx) :
    k1_pay1 (F := Ideal) (iblk1 V c 1 t) (iblk1 V c 0 t) (iblk1 V c 2 t) (iblk1 V c 3 t) (iblk1 V c 1 t) j
      = whole V c (((cfg1.win 4).blk t).view.emb j) := by
  obtain ⟨p, q, rfl⟩ : ∃ (p : Fin 5000) (q : Fin 32), j = ix2 p q := ⟨j 0, j 1, eq_ix2 j⟩
  obtain ⟨-, -, -, -, -, -, -, -, e40, e41⟩ := index_facts t
  have hr : win1_4.index t (0 : Fin 2) * 5000 + p.val < 100000 := by have := p.isLt; omega
  have hemb : ((cfg1.win 4).blk t).view.emb (ix2 p q)
      = ix2 (⟨win1_4.index t (0 : Fin 2) * 5000 + p.val, hr⟩ : Fin 100000) q := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 32 + 1 * q.val = q.val; omega
  rw [hemb]
  refine (payload_apply _ _ _ _ _ p q).trans ?_
  rw [read_weight V c t p ⟨win1_4.index t (0 : Fin 2) * 5000 + p.val, hr⟩ rfl]
  refine congrArg _ (Finset.sum_congr rfl fun k _ => ?_)
  rw [read_sums V c t p k ⟨win1_4.index t (0 : Fin 2) * 5000 + p.val, hr⟩ rfl, read_bias V c t k, read_matrix V c t k q]
  rfl

/-- What point t writes back is its row block of the whole output. -/
theorem flushed_eq (c : Dev nD) (t : Fin cfg1.N) :
    (dat1 (F := Ideal) V c).flushed 4 t = ((cfg1.win 4).blk t).view.read (Elt Ideal) (whole V c) := by
  show (cfg1.win 4).cut (grid1.coords t) ((dat1 (F := Ideal) V c).after 4 t) = _
  rw [after1_4]
  unfold out1_4
  rw [View.canon_unit_zero zero_offsets]
  simp only [View.ld_unit_zero (S := S5000x1) zero_offsets, View.ld_unit_zero (S := S5000x64) zero_offsets,
    View.ld_unit_zero (S := S1x64) zero_offsets, View.ld_unit_zero (S := S64x32) zero_offsets]
  funext j
  exact entry_eq V c t j

end Blocks

/-- An index of the output is in point t's block iff each coordinate is in the block's range on its axis. -/
theorem mem_blk (t : Fin cfg1.N) (i : S100000x32.Idx) :
    i ∈ ((cfg1.win 4).blk t).view.set
      ↔ ∀ a : Fin 2, win1_4.index t a * S5000x32.size a ≤ (i a).val
          ∧ (i a).val < win1_4.index t a * S5000x32.size a + S5000x32.size a := by
  show i ∈ ((View.whole main_v30).slice (win1_4.rect t)).set ↔ _
  rw [View.set_slice_whole, Rect.mem_set_unit]
  exact Iff.rfl

/-- Every index of the output is in some point's block: row r is in row block r / 5000. -/
theorem cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := index_onto ⟨(i 0).val / 5000, by omega⟩
  have q0 : win1_4.index t (0 : Fin 2) = (i 0).val / 5000 := ht
  obtain ⟨-, -, -, -, -, -, -, -, -, q1⟩ := index_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- The output array after the region: the scaled product of the activation (row scale, bias, rectifier of the raw
    neighbourhood sums) with the layer's weight matrix, at the arrays the region finds. -/
theorem value (V : (c : Dev nD) → (b : Ref sig .tc) → Buf (Elt Ideal) ((c : Thread nD τ).loc b)) (c : Dev nD) :
    (dat1 (F := Ideal) V c).arrAt 4 cfg1.N
      = arr2 (scaledProduct (colOf (V c main_v17 : S100000x1.Idx → EReal))
          (activation (colOf (V c main_v17 : S100000x1.Idx → EReal)) (fn2 (V c main_v28 : S100000x64.Idx → EReal))
            (rowOf (V c main_v29 : S1x64.Idx → EReal)))
          (fn2 (V c main_arg4 : S64x32.Idx → EReal))) :=
  (dat1 (F := Ideal) V c).arrAt_eq_of_cover 4 (whole V c) (fun t _ => flushed_eq V c t) cover

end Cert.Hand.Region1

end
-- ==== Proof.Region2.lean ====
/-
  The array region 2 leaves in its output, entry by entry over the extended reals.

  The region runs over 20 grid points. Point t is handed rows 5000·t … 5000·t + 4999 of the raw neighbourhood sums
  A ([100000, 32]) and of the per-node weight column dv ([100000, 1]), the whole bias row b ([1, 32]) and the whole
  weight matrix W ([32, 2]); it writes rows 5000·t … 5000·t + 4999 of the output ([100000, 2]).
  Entry (p, q) of the block it writes is
      dv p · ∑ k, max (dv p · A (p, k) + b k) 0 · W (k, q)
  with p a row of the block: the row scale, the bias and the rectifier are entrywise, the change of float format is
  the identity on the extended reals, and the matrix product accumulates into zero, so it is the plain sum over the
  contraction index.
  The row blocks of A and dv move with the output's row block; b and W stay at block (0, 0). So the block written
  at point t is the restriction to rows 5000·t … of ONE function of the whole arrays, and the 20 row blocks cover
  every row: the output array ends holding that function, which is the scaled product of the activation with W.
-/
import proofs.«106068_j19585050869931_2_alg».proof.Proof.Gen.KernelIdeal.Frame
import proofs.«106068_j19585050869931_2_alg».proof.Proof.Stages
import proofs.«106068_j19585050869931_2_alg».proof.Proof.LibDotRows
import proofs.«106068_j19585050869931_2_alg».proof.Proof.LibColumns
import proofs.«106068_j19585050869931_2_alg».proof.Proof.LibRowBroadcast
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Hand.Region2

open Cert.KernelIdeal Cert.KernelIdeal.Gen Idealize.ShloMosaic Idealize.ShloMosaic.ValueIdx Idealize.ShloMosaic.TcCoe
open Idealize.SL.Sem Cert.Hand
open Idealize.ShloMosaic.Pipeline (Dat)
open scoped BigOperators

/-! ## The body's payload at an entry -/

/-- The matrix product's contraction at the output entry (p, q): the sum over k of left (p, k) times right (k, q). -/
theorem contraction (l : FVec Ideal S5000x32 .bf16) (r : FVec Ideal S32x2 .bf16) (p : Fin 5000) (q : Fin 2) :
    ∑ c : dot_S5000x32_S32x2_S5000x2_1_0_0_1_n_n.contr.Idx,
        l (dot_S5000x32_S32x2_S5000x2_1_0_0_1_n_n.lhsIdx (ix2 p q) c) * r (dot_S5000x32_S32x2_S5000x2_1_0_0_1_n_n.rhsIdx (ix2 p q) c)
      = ∑ k : Fin 32, l (ix2 p k) * r (ix2 k q) := by
  dot_rows dot_S5000x32_S32x2_S5000x2_1_0_0_1_n_n S5000x32 S32x2 32

/-- Entry (p, q) of the stored block, from the loaded blocks: the weight column v0 = v16, the sums v2, the bias row v6,
    the weight matrix v13. The column and the row are broadcast along the other axis, the casts to the same shape and
    the change of float format are the identity, the constant the rectifier compares with is 0, and the product
    accumulates into the zero constant. -/
theorem payload_apply (v0 v16 : Vec Ideal S5000x1 .f32) (v2 : Vec Ideal S5000x32 .f32) (v6 : Vec Ideal S1x32 .f32)
    (v13 : Vec Ideal S32x2 .f32) (p : Fin 5000) (q : Fin 2) :
    k2_pay1 (F := Ideal) v0 v2 v6 v13 v16 (ix2 p q)
      = v16 (ix2 p (0 : Fin 1))
          * ∑ k : Fin 32, max (v0 (ix2 p (0 : Fin 1)) * v2 (ix2 p k) + v6 (ix2 (0 : Fin 1) k)) 0 * v13 (ix2 k q) := by
  unfold k2_pay1
  rw [mulf_apply, Cert.Columns.broadcastTo_a1_ab_apply, shapeCast_self]
  refine congrArg (v16 (ix2 p (0 : Fin 1)) * ·) ?_
  refine (Ideal.matmul_constant_zero_apply dot_S5000x32_S32x2_S5000x2_1_0_0_1_n_n none _ _ (ix2 p q)).trans ?_
  refine (contraction _ _ p q).trans ?_
  refine Finset.sum_congr rfl fun k _ => ?_
  rw [truncf_apply, truncf_apply, maximumf_apply, addf_apply, mulf_apply, broadcast_apply,
    Cert.Columns.broadcastTo_a1_ab_apply, Cert.RowBroadcast.broadcastTo_1b_ab_apply, shapeCast_self, shapeCast_self,
    shapeCast_self]
  show max _ (Ideal.ofBits .f32 0x00000000#32) * _ = _
  rw [Ideal.ofBits_zero_f32]

/-! ## The windows' block indices over the grid -/

theorem zero_offsets : (![0, 0] : Fin 2 → Nat) = fun _ => 0 := funext fun a => by fin_cases a <;> rfl

/-- The block indices, decided over the 20 points: the sums' and the weight column's row block is the output's, which
    is the point's number; every column block is 0; the bias row and the weight matrix stay at block (0, 0). -/
theorem index_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) ≤ 19 ∧ win2_4.index t (1 : Fin 2) = 0 :=
  (by decide +kernel : ∀ t : Fin grid2.N, _)

/-- Every one of the 20 row blocks of the output is some point's. -/
theorem index_onto : ∀ b : Fin 20, ∃ t : Fin cfg2.N, win2_4.index t (0 : Fin 2) = b.val :=
  (by decide +kernel : ∀ b : Fin 20, ∃ t : Fin grid2.N, win2_4.index t (0 : Fin 2) = b.val)

/-! ## The input blocks at a point, as entries of the whole arrays -/

section Blocks

variable (V : (c : Dev nD) → (b : Ref sig .tc) → Buf (Elt Ideal) ((c : Thread nD τ).loc b))

/-- Row p of the sums' block at point t is row r of the sums, r = 5000 · (the output's row block) + p. -/
theorem read_sums (c : Dev nD) (t : Fin cfg2.N) (p : Fin 5000) (k : Fin 32) (r : Fin 100000)
    (hr : r.val = win2_4.index t (0 : Fin 2) * 5000 + p.val) :
    (iblk2 (F := Ideal) V c 0 t : Vec Ideal S5000x32 .f32) (ix2 p k)
      = (V c main_v40 : S100000x32.Idx → EReal) (ix2 r k) := by
  obtain ⟨e00, e01, -⟩ := index_facts t
  show (V c main_v40 : S100000x32.Idx → EReal) (((cfg2.win 0).blk t).view.emb (ix2 p k)) = _
  refine congrArg (V c main_v40 : S100000x32.Idx → EReal) ?_
  funext a; apply Fin.ext
  match a with
  | ⟨0, _⟩ => show win2_0.index t (0 : Fin 2) * 5000 + 1 * p.val = r.val; omega
  | ⟨1, _⟩ => show win2_0.index t (1 : Fin 2) * 32 + 1 * k.val = k.val; omega

/-- Row p of the weight column's block at point t is row r of the column. -/
theorem read_weight (c : Dev nD) (t : Fin cfg2.N) (p : Fin 5000) (r : Fin 100000)
    (hr : r.val = win2_4.index t (0 : Fin 2) * 5000 + p.val) :
    (iblk2 (F := Ideal) V c 1 t : Vec Ideal S5000x1 .f32) (ix2 p (0 : Fin 1))
      = (V c main_v17 : S100000x1.Idx → EReal) (ix2 r (0 : Fin 1)) := by
  obtain ⟨-, -, e10, e11, -⟩ := index_facts t
  show (V c main_v17 : S100000x1.Idx → EReal) (((cfg2.win 1).blk t).view.emb (ix2 p (0 : Fin 1))) = _
  refine congrArg (V c main_v17 : S100000x1.Idx → EReal) ?_
  funext a; apply Fin.ext
  match a with
  | ⟨0, _⟩ => show win2_1.index t (0 : Fin 2) * 5000 + 1 * p.val = r.val; omega
  | ⟨1, _⟩ => show win2_1.index t (1 : Fin 2) * 1 + 1 * 0 = 0; omega

/-- The bias row's block at every point is the whole row. -/
theorem read_bias (c : Dev nD) (t : Fin cfg2.N) (k : Fin 32) :
    (iblk2 (F := Ideal) V c 2 t : Vec Ideal S1x32 .f32) (ix2 (0 : Fin 1) k)
      = (V c main_v41 : S1x32.Idx → EReal) (ix2 (0 : Fin 1) k) := by
  obtain ⟨-, -, -, -, e20, e21, -⟩ := index_facts t
  show (V c main_v41 : S1x32.Idx → EReal) (((cfg2.win 2).blk t).view.emb (ix2 (0 : Fin 1) k)) = _
  refine congrArg (V c main_v41 : S1x32.Idx → EReal) ?_
  funext a; apply Fin.ext
  match a with
  | ⟨0, _⟩ => show win2_2.index t (0 : Fin 2) * 1 + 1 * 0 = 0; omega
  | ⟨1, _⟩ => show win2_2.index t (1 : Fin 2) * 32 + 1 * k.val = k.val; omega

/-- The weight matrix's block at every point is the whole matrix. -/
theorem read_matrix (c : Dev nD) (t : Fin cfg2.N) (k : Fin 32) (q : Fin 2) :
    (iblk2 (F := Ideal) V c 3 t : Vec Ideal S32x2 .f32) (ix2 k q)
      = (V c main_arg6 : S32x2.Idx → EReal) (ix2 k q) := by
  obtain ⟨-, -, -, -, -, -, e30, e31, -⟩ := index_facts t
  show (V c main_arg6 : S32x2.Idx → EReal) (((cfg2.win 3).blk t).view.emb (ix2 k q)) = _
  refine congrArg (V c main_arg6 : S32x2.Idx → EReal) ?_
  funext a; apply Fin.ext
  match a with
  | ⟨0, _⟩ => show win2_3.index t (0 : Fin 2) * 32 + 1 * k.val = k.val; omega
  | ⟨1, _⟩ => show win2_3.index t (1 : Fin 2) * 2 + 1 * q.val = q.val; omega

/-! ## The block a point writes back, and the array -/

/-- The whole output as one function of the arrays the region finds: the scaled product of the activation with W. -/
abbrev whole (c : Dev nD) : S100000x2.Idx → EReal :=
  arr2 (scaledProduct (colOf (V c main_v17 : S100000x1.Idx → EReal))
    (activation (colOf (V c main_v17 : S100000x1.Idx → EReal)) (fn2 (V c main_v40 : S100000x32.Idx → EReal))
      (rowOf (V c main_v41 : S1x32.Idx → EReal)))
    (fn2 (V c main_arg6 : S32x2.Idx → EReal)))

/-- Entry j of the payload of the input blocks at point t is the whole output's entry at j's place in the array. -/
theorem entry_eq (c : Dev nD) (t : Fin cfg2.N) (j : S5000x2.Idx) :
    k2_pay1 (F := Ideal) (iblk2 V c 1 t) (iblk2 V c 0 t) (iblk2 V c 2 t) (iblk2 V c 3 t) (iblk2 V c 1 t) j
      = whole V c (((cfg2.win 4).blk t).view.emb j) := by
  obtain ⟨p, q, rfl⟩ : ∃ (p : Fin 5000) (q : Fin 2), j = ix2 p q := ⟨j 0, j 1, eq_ix2 j⟩
  obtain ⟨-, -, -, -, -, -, -, -, e40, e41⟩ := index_facts t
  have hr : win2_4.index t (0 : Fin 2) * 5000 + p.val < 100000 := by have := p.isLt; omega
  have hemb : ((cfg2.win 4).blk t).view.emb (ix2 p q)
      = ix2 (⟨win2_4.index t (0 : Fin 2) * 5000 + p.val, hr⟩ : Fin 100000) q := by
    funext a; apply Fin.ext
    match a with
    | ⟨0, _⟩ => show win2_4.index t (0 : Fin 2) * 5000 + 1 * p.val = win2_4.index t (0 : Fin 2) * 5000 + p.val; omega
    | ⟨1, _⟩ => show win2_4.index t (1 : Fin 2) * 2 + 1 * q.val = q.val; omega
  rw [hemb]
  refine (payload_apply _ _ _ _ _ p q).trans ?_
  rw [read_weight V c t p ⟨win2_4.index t (0 : Fin 2) * 5000 + p.val, hr⟩ rfl]
  refine congrArg _ (Finset.sum_congr rfl fun k _ => ?_)
  rw [read_sums V c t p k ⟨win2_4.index t (0 : Fin 2) * 5000 + p.val, hr⟩ rfl, read_bias V c t k, read_matrix V c t k q]
  rfl

/-- What point t writes back is its row block of the whole output. -/
theorem flushed_eq (c : Dev nD) (t : Fin cfg2.N) :
    (dat2 (F := Ideal) V c).flushed 4 t = ((cfg2.win 4).blk t).view.read (Elt Ideal) (whole V c) := by
  show (cfg2.win 4).cut (grid2.coords t) ((dat2 (F := Ideal) V c).after 4 t) = _
  rw [after2_4]
  unfold out2_4
  rw [View.canon_unit_zero zero_offsets]
  simp only [View.ld_unit_zero (S := S5000x1) zero_offsets, View.ld_unit_zero (S := S5000x32) zero_offsets,
    View.ld_unit_zero (S := S1x32) zero_offsets, View.ld_unit_zero (S := S32x2) zero_offsets]
  funext j
  exact entry_eq V c t j

end Blocks

/-- An index of the output is in point t's block iff each coordinate is in the block's range on its axis. -/
theorem mem_blk (t : Fin cfg2.N) (i : S100000x2.Idx) :
    i ∈ ((cfg2.win 4).blk t).view.set
      ↔ ∀ a : Fin 2, win2_4.index t a * S5000x2.size a ≤ (i a).val
          ∧ (i a).val < win2_4.index t a * S5000x2.size a + S5000x2.size a := by
  show i ∈ ((View.whole main_v42).slice (win2_4.rect t)).set ↔ _
  rw [View.set_slice_whole, Rect.mem_set_unit]
  exact Iff.rfl

/-- Every index of the output is in some point's block: row r is in row block r / 5000. -/
theorem cover (i : S100000x2.Idx) :
    ∃ t : Fin cfg2.N, (cfg2.win 4).flush t = true ∧ i ∈ ((cfg2.win 4).blk t).view.set := by
  have hi0 : (i 0).val < 100000 := (i 0).isLt
  have hi1 : (i 1).val < 2 := (i 1).isLt
  obtain ⟨t, ht⟩ := index_onto ⟨(i 0).val / 5000, by omega⟩
  have q0 : win2_4.index t (0 : Fin 2) = (i 0).val / 5000 := ht
  obtain ⟨-, -, -, -, -, -, -, -, -, q1⟩ := index_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 2 ≤ (i 1).val ∧ (i 1).val < win2_4.index t (1 : Fin 2) * 2 + 2; omega

/-- The output array after the region: the scaled product of the activation (row scale, bias, rectifier of the raw
    neighbourhood sums) with the layer's weight matrix, at the arrays the region finds. -/
theorem value (V : (c : Dev nD) → (b : Ref sig .tc) → Buf (Elt Ideal) ((c : Thread nD τ).loc b)) (c : Dev nD) :
    (dat2 (F := Ideal) V c).arrAt 4 cfg2.N
      = arr2 (scaledProduct (colOf (V c main_v17 : S100000x1.Idx → EReal))
          (activation (colOf (V c main_v17 : S100000x1.Idx → EReal)) (fn2 (V c main_v40 : S100000x32.Idx → EReal))
            (rowOf (V c main_v41 : S1x32.Idx → EReal)))
          (fn2 (V c main_arg6 : S32x2.Idx → EReal))) :=
  (dat2 (F := Ideal) V c).arrAt_eq_of_cover 4 (whole V c) (fun t _ => flushed_eq V c t) cover

end Cert.Hand.Region2

end
-- ==== Proof.Hop.lean ====
/-
  Reading rows along the edges and summing them per destination, as one step.

  Gathering the rows of a node matrix H at the source column and adding the gathered rows into a zero matrix at the
  destination column gives, at node r and column c, the sum over the edges that land at r of H at the edge's source
  node and column c: the row-gather reads the source word signed and clamped into the node range, the scatter-add reads
  the destination word signed and drops an edge whose word is no node number.
-/
import proofs.«106068_j19585050869931_2_alg».proof.Proof.Spec
import proofs.«106068_j19585050869931_2_alg».proof.Proof.LibGatherRows
import proofs.«106068_j19585050869931_2_alg».proof.Proof.LibScatterRows

noncomputable section

namespace Cert.Hand

open Idealize.ShloMosaic Idealize.ShloMosaic.ValueIdx
open scoped BigOperators

/-- The row-gather's start index for result entry (e, c) is the index column's entry (e, 0). -/
theorem rowsIdx_ix2 {R D : Nat} (e : Fin R) (c : Fin D) :
    Cert.Lib.GatherRows.rowsIdx (ix2 e c) = ix2 e (0 : Fin 1) :=
  funext fun a => by
    match a with
    | ⟨0, _⟩ => rfl
    | ⟨1, _⟩ => rfl

/-- Gather the rows of H along the edges, add them into zeros per destination: the per-destination sum of source rows. -/
theorem gather_scatter_eq {D : Nat}
    (wfg : GatherDims.WF ⟨2, ![NN, D]⟩ ⟨2, ![RR, 1]⟩ ⟨2, ![RR, D]⟩ [1] [0] [] [0] [] 1 ![1, D])
    (wfs : ScatterDims.WF ⟨2, ![NN, D]⟩ ⟨2, ![RR, 1]⟩ ⟨2, ![RR, D]⟩ [1] [0] [0] 1)
    (H : (⟨2, ![NN, D]⟩ : Shape).Idx → EReal) (gcol scol : IVec ⟨2, ![RR, 1]⟩ 32)
    (z : (⟨2, ![NN, D]⟩ : Shape).Idx → EReal) (hz : ∀ i, z i = 0) :
    Ideal.hostScatterAdd (Cert.Lib.ScatterRows.rowsDims NN RR D wfs) z scol
        (Host.gather (Cert.Lib.GatherRows.rowsDims NN RR D wfg) H gcol)
      = arr2 (gatherSum gcol scol (fn2 H)) := by
  funext i
  obtain ⟨r, c, rfl⟩ : ∃ (r : Fin NN) (c : Fin D), i = ix2 r c :=
    ⟨⟨(i 0).val, idx2_lt0 i⟩, ⟨(i 1).val, idx2_lt1 i⟩, eq_ix2 i⟩
  rw [Cert.Lib.ScatterRows.scatterAdd_rows_apply, hz, zero_add, arr2_ix2]
  unfold gatherSum
  refine Finset.sum_congr rfl fun e _ => if_congr Iff.rfl ?_ rfl
  rw [Cert.Lib.GatherRows.gather_rows_apply (by decide : 0 < NN)]
  refine congrArg H (funext fun a => Fin.ext ?_)
  match a with
  | ⟨0, _⟩ =>
    show min (gcol (Cert.Lib.GatherRows.rowsIdx (ix2 e c))).toInt.toNat (NN - 1)
      = min (gcol (ix2 e (0 : Fin 1))).toInt.toNat (NN - 1)
    rw [rowsIdx_ix2]
  | ⟨1, _⟩ => rfl

end Cert.Hand

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.KChain2.lean ====
/-
  The idealized kernel's result array as one function of its arguments.

  Region 0 leaves dv ⊙ (x · W1) in its output. The stretch after it reads that array's rows along the edges and sums them
  per destination (the raw neighbourhood sums of layer 1) and lays the bias b1 out as a row. Region 1 leaves
  dv ⊙ (max (dv ⊙ sums + b1) 0 · W2), the next stretch sums its rows along the edges, region 2 does the same with W3, and
  the last stretch sums region 2's rows along the edges, scales row r by dv r and adds the bias b3. With the buffers
  that persist (the edge columns, the weight column, the arguments) at their contents after the first stretches, this is
  kernelOut of the arguments.
-/
import proofs.«106068_j19585050869931_2_alg».proof.Proof.KChain1
import proofs.«106068_j19585050869931_2_alg».proof.Proof.Region0
import proofs.«106068_j19585050869931_2_alg».proof.Proof.Region1
import proofs.«106068_j19585050869931_2_alg».proof.Proof.Region2
import proofs.«106068_j19585050869931_2_alg».proof.Proof.Hop
import proofs.«106068_j19585050869931_2_alg».proof.Proof.LibRowCast
import proofs.«106068_j19585050869931_2_alg».proof.Proof.LibColumns
import Idealize.ShloMosaic.Lib.Pipeline.Value
import Idealize.ShloMosaic.PureOps.Ideal.Laws

set_option maxRecDepth 16384

noncomputable section

namespace Cert.Hand.K

open Cert.KernelIdeal Cert.KernelIdeal.Gen
open Idealize.ShloMosaic Idealize.ShloMosaic.TcCoe Idealize.ShloMosaic.StableHlo Idealize.SL.Sem
open Idealize.ShloMosaic.ValueIdx Cert.Hand
open Idealize.ShloMosaic.Pipeline (Dat)

variable (m : (ℓ : Loc nD τ sig) → Buf (Elt Ideal) ℓ) (ρ : Dev nD → PrngReg) (c : Dev nD)

/-! ## The arguments and what the first stretches make of the edge list, as functions of rows and columns -/

/-- The per-node weight. -/
abbrev dvF : Fin NN → EReal := colOf (dv2K Ideal (m ((c : Thread nD τ).loc main_arg1)))
/-- The source column for reading rows. -/
abbrev gcF : IVec ⟨2, ![RR, 1]⟩ 32 := gcolK Ideal (m ((c : Thread nD τ).loc main_arg1))
/-- The destination column for the per-destination sums. -/
abbrev scF : IVec ⟨2, ![RR, 1]⟩ 32 := scolK Ideal (m ((c : Thread nD τ).loc main_arg1))
abbrev xF : Fin NN → Fin 64 → EReal := fn2 (m ((c : Thread nD τ).loc main_arg0))
abbrev w1F : Fin 64 → Fin 64 → EReal := fn2 (m ((c : Thread nD τ).loc main_arg2))
abbrev b1F : Fin 64 → EReal := fun q => m ((c : Thread nD τ).loc main_arg3) (ix1 q)
abbrev w2F : Fin 64 → Fin 32 → EReal := fn2 (m ((c : Thread nD τ).loc main_arg4))
abbrev b2F : Fin 32 → EReal := fun q => m ((c : Thread nD τ).loc main_arg5) (ix1 q)
abbrev w3F : Fin 32 → Fin 2 → EReal := fn2 (m ((c : Thread nD τ).loc main_arg6))
abbrev b3F : Fin 2 → EReal := fun q => m ((c : Thread nD τ).loc main_arg7) (ix1 q)

/-- A zero constant broadcast to any shape reads 0 everywhere. -/
theorem zeros_apply {s : Shape} (h : S_.BroadcastsInDim s (![] : Fin 0 → Fin s.rank)) (i : s.Idx) :
    broadcastInDim s ![] h (constant (F := Ideal) S_ .f32 0x00000000#32) i = 0 :=
  (broadcastInDim_apply _ h _ i (fun a => a.elim0) (fun a => a.elim0)).trans Ideal.ofBits_zero_f32

/-- A vector laid out as a row, read back as a row. -/
theorem rowOf_cast {b : Nat} (x : (⟨1, ![b]⟩ : Shape).Idx → EReal) (h : (⟨1, ![b]⟩ : Shape).ShapeCasts ⟨2, ![1, b]⟩) :
    rowOf (shapeCast ⟨2, ![1, b]⟩ x h) = fun q => x (ix1 q) :=
  funext fun q => Cert.RowCast.shapeCast_row_apply x h 0 q

/-! ## Layer 1 -/

/-- Region 0's output: dv ⊙ (x · W1). -/
theorem W4_out : W4 m ρ c (Proc.devRef .tc main_v18) = arr2 (scaledProduct (dvF m c) (xF m c) (w1F m c)) := by
  refine (W4_arr m ρ c 3).trans ((Region0.value (V3 m ρ) c).trans ?_)
  have e1 : (V3 m ρ c main_v17 : S100000x1.Idx → EReal) = dv2K Ideal (m ((c : Thread nD τ).loc main_arg1)) := W3_dv m ρ c
  have e0 : (V3 m ρ c main_arg0 : S100000x64.Idx → EReal) = m ((c : Thread nD τ).loc main_arg0) := W3_arg0 m ρ c
  have e2 : (V3 m ρ c main_arg2 : S64x64.Idx → EReal) = m ((c : Thread nD τ).loc main_arg2) := W3_arg2 m ρ c
  rw [e1, e0, e2]

/-- The raw neighbourhood sums of layer 1. -/
theorem W5_sums_eq : W5 m ρ c (Proc.devRef .tc main_v28)
    = arr2 (kAgg (dvF m c) (gcF m c) (scF m c) (xF m c) (w1F m c)) := by
  rw [W5_sums, W4_out]
  exact gather_scatter_eq gather_S100000x64_S1700000x1_S1700000x64_1_0_n_n_0_1_164.wf
    scatter_S100000x64_S1700000x1_S1700000x64_1_0_0_1.wf _ _ _ _ (zeros_apply bcast_S_S100000x64)

/-! ## Layer 2 -/

theorem W6_src : W6 m ρ c (Proc.devRef .tc main_v3) = srcK Ideal (m ((c : Thread nD τ).loc main_arg1)) :=
  (W6_of_ne m ρ c main_v3 (by decide)).trans (W5_src m ρ c)
theorem W6_dst : W6 m ρ c (Proc.devRef .tc main_v6) = dstK Ideal (m ((c : Thread nD τ).loc main_arg1)) :=
  (W6_of_ne m ρ c main_v6 (by decide)).trans (W5_dst m ρ c)
theorem W6_dv : W6 m ρ c (Proc.devRef .tc main_v17) = dv2K Ideal (m ((c : Thread nD τ).loc main_arg1)) :=
  (W6_arr m ρ c 1).trans ((((dat1 (V5 m ρ) c).arrAt_in 1 rfl _).trans (A_eq1 (V5 m ρ) c 1)).trans (W5_dv m ρ c))
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)
theorem W6_arg7 : W6 m ρ c (Proc.devRef .tc main_arg7) = m ((c : Thread nD τ).loc main_arg7) :=
  (W6_of_ne m ρ c main_arg7 (by decide)).trans (W5_arg7 m ρ c)

/-- The rectified layer-1 activations, from the raw sums. -/
abbrev t1F : Fin NN → Fin 64 → EReal :=
  activation (dvF m c) (kAgg (dvF m c) (gcF m c) (scF m c) (xF m c) (w1F m c)) (b1F m c)

/-- Region 1's output: dv ⊙ (t1 · W2). -/
theorem W6_out : W6 m ρ c (Proc.devRef .tc main_v30) = arr2 (scaledProduct (dvF m c) (t1F m c) (w2F m c)) := by
  refine (W6_arr m ρ c 4).trans ((Region1.value (V5 m ρ) c).trans ?_)
  have e1 : (V5 m ρ c main_v17 : S100000x1.Idx → EReal) = dv2K Ideal (m ((c : Thread nD τ).loc main_arg1)) := W5_dv m ρ c
  have e0 : (V5 m ρ c main_v28 : S100000x64.Idx → EReal)
      = arr2 (kAgg (dvF m c) (gcF m c) (scF m c) (xF m c) (w1F m c)) := W5_sums_eq m ρ c
  have e2 : (V5 m ρ c main_v29 : S1x64.Idx → EReal)
      = shapeCast S1x64 (m ((c : Thread nD τ).loc main_arg3)) shapeCasts_S64_S1x64 := W5_bias m ρ c
  have e3 : (V5 m ρ c main_arg4 : S64x32.Idx → EReal) = m ((c : Thread nD τ).loc main_arg4) := W5_arg4 m ρ c
  rw [e1, e0, e2, e3, rowOf_cast]
  rfl

theorem W7_src : W7 m ρ c (Proc.devRef .tc main_v3) = srcK Ideal (m ((c : Thread nD τ).loc main_arg1)) :=
  (by kept_by_stretch : W7 m ρ c (Proc.devRef .tc main_v3) = W6 m ρ c (Proc.devRef .tc main_v3)).trans (W6_src m ρ c)
theorem W7_dst : W7 m ρ c (Proc.devRef .tc main_v6) = dstK Ideal (m ((c : Thread nD τ).loc main_arg1)) :=
  (by kept_by_stretch : W7 m ρ c (Proc.devRef .tc main_v6) = W6 m ρ c (Proc.devRef .tc main_v6)).trans (W6_dst m ρ c)
theorem W7_dv : W7 m ρ c (Proc.devRef .tc main_v17) = dv2K Ideal (m ((c : Thread nD τ).loc main_arg1)) :=
  (by kept_by_stretch : W7 m ρ c (Proc.devRef .tc main_v17) = W6 m ρ c (Proc.devRef .tc main_v17)).trans (W6_dv m ρ c)
theorem W7_arg6 : W7 m ρ c (Proc.devRef .tc main_arg6) = m ((c : Thread nD τ).loc main_arg6) :=
  (by kept_by_stretch : W7 m ρ c (Proc.devRef .tc main_arg6) = W6 m ρ c (Proc.devRef .tc main_arg6)).trans (W6_arg6 m ρ c)
theorem W7_arg7 : W7 m ρ c (Proc.devRef .tc main_arg7) = m ((c : Thread nD τ).loc main_arg7) :=
  (by kept_by_stretch : W7 m ρ c (Proc.devRef .tc main_arg7) = W6 m ρ c (Proc.devRef .tc main_arg7)).trans (W6_arg7 m ρ c)

/-- The bias of layer 3's input, as a row. -/
theorem W7_bias : W7 m ρ c (Proc.devRef .tc main_v41)
    = shapeCast S1x32 (m ((c : Thread nD τ).loc main_arg5)) shapeCasts_S32_S1x32 := by
  show StableHlo.after hostOps2 (W6 m ρ c) (Proc.devRef .tc main_v41) = _
  after_results_simp
  rw [W6_arg5]
  rfl

/-- The raw neighbourhood sums of layer 2. -/
theorem W7_sums_eq : W7 m ρ c (Proc.devRef .tc main_v40)
    = arr2 (kAgg (dvF m c) (gcF m c) (scF m c) (t1F m c) (w2F m c)) := by
  have h : W7 m ρ c (Proc.devRef .tc main_v40)
      = Host.scatterAdd scatter_S100000x32_S1700000x1_S1700000x32_1_0_0_1
          (broadcastInDim S100000x32 ![] bcast_S_S100000x32 (constant (F := Ideal) S_ .f32 0x00000000#32))
          (scolK Ideal (m ((c : Thread nD τ).loc main_arg1)))
          (Host.gather gather_S100000x32_S1700000x1_S1700000x32_1_0_n_n_0_1_132 (W6 m ρ c (Proc.devRef .tc main_v30))
            (gcolK Ideal (m ((c : Thread nD τ).loc main_arg1)))) := by
    show StableHlo.after hostOps2 (W6 m ρ c) (Proc.devRef .tc main_v40) = _
    after_results_simp
    rw [W6_src, W6_dst]
    rfl
  rw [h, W6_out]
  exact gather_scatter_eq gather_S100000x32_S1700000x1_S1700000x32_1_0_n_n_0_1_132.wf
    scatter_S100000x32_S1700000x1_S1700000x32_1_0_0_1.wf _ _ _ _ (zeros_apply bcast_S_S100000x32)

/-! ## Layer 3 -/

theorem W8_src : W8 m ρ c (Proc.devRef .tc main_v3) = srcK Ideal (m ((c : Thread nD τ).loc main_arg1)) :=
  (W8_of_ne m ρ c main_v3 (by decide)).trans (W7_src m ρ c)
theorem W8_dst : W8 m ρ c (Proc.devRef .tc main_v6) = dstK Ideal (m ((c : Thread nD τ).loc main_arg1)) :=
  (W8_of_ne m ρ c main_v6 (by decide)).trans (W7_dst m ρ c)
theorem W8_dv : W8 m ρ c (Proc.devRef .tc main_v17) = dv2K Ideal (m ((c : Thread nD τ).loc main_arg1)) :=
  (W8_arr m ρ c 1).trans ((((dat2 (V7 m ρ) c).arrAt_in 1 rfl _).trans (A_eq2 (V7 m ρ) c 1)).trans (W7_dv m ρ c))
theorem W8_arg7 : W8 m ρ c (Proc.devRef .tc main_arg7) = m ((c : Thread nD τ).loc main_arg7) :=
  (W8_of_ne m ρ c main_arg7 (by decide)).trans (W7_arg7 m ρ c)

/-- The rectified layer-2 activations, from the raw sums. -/
abbrev t2F : Fin NN → Fin 32 → EReal :=
  activation (dvF m c) (kAgg (dvF m c) (gcF m c) (scF m c) (t1F m c) (w2F m c)) (b2F m c)

/-- Region 2's output: dv ⊙ (t2 · W3). -/
theorem W8_out : W8 m ρ c (Proc.devRef .tc main_v42) = arr2 (scaledProduct (dvF m c) (t2F m c) (w3F m c)) := by
  refine (W8_arr m ρ c 4).trans ((Region2.value (V7 m ρ) c).trans ?_)
  have e1 : (V7 m ρ c main_v17 : S100000x1.Idx → EReal) = dv2K Ideal (m ((c : Thread nD τ).loc main_arg1)) := W7_dv m ρ c
  have e0 : (V7 m ρ c main_v40 : S100000x32.Idx → EReal)
      = arr2 (kAgg (dvF m c) (gcF m c) (scF m c) (t1F m c) (w2F m c)) := W7_sums_eq m ρ c
  have e2 : (V7 m ρ c main_v41 : S1x32.Idx → EReal)
      = shapeCast S1x32 (m ((c : Thread nD τ).loc main_arg5)) shapeCasts_S32_S1x32 := W7_bias m ρ c
  have e3 : (V7 m ρ c main_arg6 : S32x2.Idx → EReal) = m ((c : Thread nD τ).loc main_arg6) := W7_arg6 m ρ c
  rw [e1, e0, e2, e3, rowOf_cast]
  rfl

/-- What the last stretch leaves in the result array, from what region 2's exit holds. -/
theorem W9_final : W9 m ρ c (Proc.devRef .tc main_v57)
    = addf (mulf (broadcastInDim S100000x2 ![0, 1] bcast_S100000x1_S100000x2_0_1 (dv2K Ideal (m ((c : Thread nD τ).loc main_arg1))))
          (Host.scatterAdd scatter_S100000x2_S1700000x1_S1700000x2_1_0_0_1
            (broadcastInDim S100000x2 ![] bcast_S_S100000x2 (constant (F := Ideal) S_ .f32 0x00000000#32))
            (scolK Ideal (m ((c : Thread nD τ).loc main_arg1)))
            (Host.gather gather_S100000x2_S1700000x1_S1700000x2_1_0_n_n_0_1_12 (W8 m ρ c (Proc.devRef .tc main_v42))
              (gcolK Ideal (m ((c : Thread nD τ).loc main_arg1))))))
        (broadcastInDim S100000x2 ![0, 1] bcast_S1x2_S100000x2_0_1
          (broadcastInDim S1x2 ![1] bcast_S2_S1x2_1 (m ((c : Thread nD τ).loc main_arg7)))) := by
  show StableHlo.after hostOps3 (W8 m ρ c) (Proc.devRef .tc main_v57) = _
  after_results_simp
  rw [W8_src, W8_dst, W8_dv, W8_arg7]
  rfl

/-- The weight column broadcast along the two result columns reads the column's entry of the row. -/
theorem dv_bcast_apply (v : S100000x1.Idx → EReal) (r : Fin NN) (q : Fin 2) :
    broadcastInDim S100000x2 ![0, 1] bcast_S100000x1_S100000x2_0_1 v (ix2 r q) = v (ix2 r (0 : Fin 1)) :=
  broadcastInDim_apply _ bcast_S100000x1_S100000x2_0_1 v (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- The bias laid out as a row and broadcast along the rows reads the bias entry of the column. -/
theorem bias_bcast_apply (v : S2.Idx → EReal) (r : Fin NN) (q : Fin 2) :
    broadcastInDim S100000x2 ![0, 1] bcast_S1x2_S100000x2_0_1 (broadcastInDim S1x2 ![1] bcast_S2_S1x2_1 v) (ix2 r q)
      = v (ix1 q) := by
  refine (broadcastInDim_apply _ bcast_S1x2_S100000x2_0_1 _ (ix2 r q) (ix2 (0 : Fin 1) q) (fun a => match a with
    | ⟨0, _⟩ => by show 0 = if (1 : Nat) = 1 then 0 else r.val; rw [if_pos rfl]
    | ⟨1, _⟩ => by show q.val = if (2 : Nat) = 1 then 0 else q.val; rw [if_neg (by decide)])).trans ?_
  exact broadcastInDim_apply _ bcast_S2_S1x2_1 v (ix2 (0 : Fin 1) q) (ix1 q) (fun a => match a with
    | ⟨0, _⟩ => by show q.val = if (2 : Nat) = 1 then 0 else q.val; rw [if_neg (by decide)])

/-- THE RESULT: the last stretch sums region 2's rows along the edges, scales row r by dv r and adds the bias. -/
theorem kernel_value : W9 m ρ c (Proc.devRef .tc main_v57)
    = arr2 (kernelOut (dvF m c) (gcF m c) (scF m c) (xF m c) (w1F m c) (b1F m c) (w2F m c) (b2F m c) (w3F m c) (b3F m c)) := by
  have hs : Host.scatterAdd scatter_S100000x2_S1700000x1_S1700000x2_1_0_0_1
        (broadcastInDim S100000x2 ![] bcast_S_S100000x2 (constant (F := Ideal) S_ .f32 0x00000000#32))
        (scolK Ideal (m ((c : Thread nD τ).loc main_arg1)))
        (Host.gather gather_S100000x2_S1700000x1_S1700000x2_1_0_n_n_0_1_12
          (arr2 (scaledProduct (dvF m c) (t2F m c) (w3F m c))) (gcolK Ideal (m ((c : Thread nD τ).loc main_arg1))))
      = arr2 (kAgg (dvF m c) (gcF m c) (scF m c) (t2F m c) (w3F m c)) :=
    gather_scatter_eq gather_S100000x2_S1700000x1_S1700000x2_1_0_n_n_0_1_12.wf
      scatter_S100000x2_S1700000x1_S1700000x2_1_0_0_1.wf _ _ _ _ (zeros_apply bcast_S_S100000x2)
  rw [W9_final, W8_out, hs]
  funext i
  obtain ⟨r, q, rfl⟩ : ∃ (r : Fin NN) (q : Fin 2), i = ix2 r q :=
    ⟨⟨(i 0).val, idx2_lt0 i⟩, ⟨(i 1).val, idx2_lt1 i⟩, eq_ix2 i⟩
  rw [addf_apply, mulf_apply, dv_bcast_apply, bias_bcast_apply, arr2_ix2, arr2_ix2]
  rfl

end Cert.Hand.K

end
-- ==== Proof.Bridge.lean ====
/-
  Both programs compute the edge columns and the node weight from the edge list by the same operations.

  The kernel's host operations and the reference's build, from the edge list, the same word vectors (the given edges
  followed by one self loop per node), the same raw destination column, the same wrapped source column, the same degrees
  (a sum of ones per destination) and the same weight (an inverse square root where the degree is positive): the two
  texts are one composition of one set of operations, so the equalities hold by unfolding, for any float values. The
  kernel keeps the weight as a column; read back as a function of the node it is the reference's weight.
-/
import proofs.«106068_j19585050869931_2_alg».proof.Proof.RefCols
import proofs.«106068_j19585050869931_2_alg».proof.Proof.KHost
import proofs.«106068_j19585050869931_2_alg».proof.Proof.LibColumns

noncomputable section

namespace Cert.Hand

open Idealize.ShloMosaic Idealize.ShloMosaic.ValueIdx
open Cert.ReferenceIdeal.Read

section AnyFloat
variable {F : FTy → Type} [FloatOps F]

/-- The raw destination column. -/
theorem scol_words (x1 : K.Edges F) : val_main_v9 (F := F) x1 = K.scolK F x1 := rfl
/-- The wrapped source column. -/
theorem gcol_words (x1 : K.Edges F) : val_main_v23 (F := F) x1 = K.gcolK F x1 := rfl
/-- The node weight. -/
theorem dv_words (x1 : K.Edges F) : val_main_v16 (F := F) x1 = K.dvK F x1 := rfl

end AnyFloat

theorem gcol_eq (x1 : K.Edges Ideal) : Ref.gcolOf x1 = K.gcolK Ideal x1 := gcol_words x1

theorem scol_eq (x1 : K.Edges Ideal) : Ref.scolOf x1 = K.scolK Ideal x1 := scol_words x1

theorem dv_eq (x1 : K.Edges Ideal) : Ref.dvOf x1 = colOf (K.dv2K Ideal x1) := by
  funext r
  show val_main_v16 (F := Ideal) x1 (ix1 r) = K.dv2K Ideal x1 (ix2 r (0 : Fin 1))
  rw [dv_words]
  unfold K.dv2K
  exact (Cert.Columns.shapeCast_a_a1_apply (K.dvK Ideal x1) _ r 0).symm

end Cert.Hand

end
-- ==== Proof.Algebra.lean ====
/-
  The two arrangements of a graph-convolution layer agree.

  A finite non-negative extended real c distributes over every sum of extended reals: c · (y + z) = c · y + c · z holds
  with no condition on y and z, so c · ∑ f = ∑ c · f by induction over the index set. On the edges that land at node r
  the destination read is r, so every term of r's weighted sum carries the same factor dv r, which therefore comes out of
  the sum; the remaining factor dv (source) stays with the source row. That turns one layer of the edge-by-edge
  arrangement into the row-scaled one, and the three layers follow by substitution.
-/
import proofs.«106068_j19585050869931_2_alg».proof.Proof.Spec

noncomputable section

namespace Cert.Hand

open Idealize.ShloMosaic Idealize.ShloMosaic.ValueIdx
open scoped BigOperators

/-- A finite non-negative factor goes inside a sum of guarded terms. -/
theorem mul_sum_ite {ι : Type} (s : Finset ι) (p : ι → Prop) [DecidablePred p] (f : ι → EReal) (c : EReal)
    (h0 : 0 ≤ c) (ht : c ≠ ⊤) :
    c * ∑ e ∈ s, (if p e then f e else 0) = ∑ e ∈ s, (if p e then c * f e else 0) := by
  classical
  induction s using Finset.induction_on with
  | empty => simp
  | insert a s ha ih =>
    rw [Finset.sum_insert ha, Finset.sum_insert ha, EReal.left_distrib_of_nonneg_of_ne_top h0 ht, ih]
    congr 1
    split <;> simp

variable {k d : Nat}

/-- One layer: the edge-by-edge weighted sum is the row scale of the sum of the pre-scaled rows. -/
theorem weightedSum_eq (dv : Fin NN → EReal) (gcol dcol scol : IVec ⟨2, ![RR, 1]⟩ 32)
    (hdv : ∀ r, 0 ≤ dv r ∧ dv r ≠ ⊤) (hcol : ∀ e r, landsAt scol e r → nodeOf dcol e = r)
    (T : Fin NN → Fin k → EReal) (W : Fin k → Fin d → EReal) (r : Fin NN) (c : Fin d) :
    weightedSum dv gcol dcol scol (product T W) r c = dv r * kAgg dv gcol scol T W r c := by
  unfold weightedSum kAgg gatherSum
  rw [mul_sum_ite _ _ _ _ (hdv r).1 (hdv r).2]
  refine Finset.sum_congr rfl fun e _ => ?_
  by_cases h : landsAt scol e r
  · rw [if_pos h, if_pos h, hcol e r h]
    unfold scaledProduct product
    rw [mul_comm (dv (nodeOf gcol e)) (dv r), mul_assoc]
  · rw [if_neg h, if_neg h]

/-- One layer with its bias. -/
theorem rLayer_eq (dv : Fin NN → EReal) (gcol dcol scol : IVec ⟨2, ![RR, 1]⟩ 32)
    (hdv : ∀ r, 0 ≤ dv r ∧ dv r ≠ ⊤) (hcol : ∀ e r, landsAt scol e r → nodeOf dcol e = r)
    (T : Fin NN → Fin k → EReal) (W : Fin k → Fin d → EReal) (b : Fin d → EReal) :
    rLayer dv gcol dcol scol T W b = fun r c => dv r * kAgg dv gcol scol T W r c + b c := by
  funext r c
  unfold rLayer
  rw [weightedSum_eq dv gcol dcol scol hdv hcol]

/-- A rectified layer is the row-scaled arrangement's activation of its raw sums. -/
theorem relu_rLayer_eq (dv : Fin NN → EReal) (gcol dcol scol : IVec ⟨2, ![RR, 1]⟩ 32)
    (hdv : ∀ r, 0 ≤ dv r ∧ dv r ≠ ⊤) (hcol : ∀ e r, landsAt scol e r → nodeOf dcol e = r)
    (T : Fin NN → Fin k → EReal) (W : Fin k → Fin d → EReal) (b : Fin d → EReal) :
    relu (rLayer dv gcol dcol scol T W b) = activation dv (kAgg dv gcol scol T W) b := by
  rw [rLayer_eq dv gcol dcol scol hdv hcol]
  rfl

/-- The three layers: the edge-by-edge arrangement is the row-scaled one. -/
theorem ref_eq_kernel (dv : Fin NN → EReal) (gcol dcol scol : IVec ⟨2, ![RR, 1]⟩ 32)
    (hdv : ∀ r, 0 ≤ dv r ∧ dv r ≠ ⊤) (hcol : ∀ e r, landsAt scol e r → nodeOf dcol e = r)
    (X : Fin NN → Fin 64 → EReal) (W1 : Fin 64 → Fin 64 → EReal) (b1 : Fin 64 → EReal) (W2 : Fin 64 → Fin 32 → EReal)
    (b2 : Fin 32 → EReal) (W3 : Fin 32 → Fin 2 → EReal) (b3 : Fin 2 → EReal) :
    refOut dv gcol dcol scol X W1 b1 W2 b2 W3 b3 = kernelOut dv gcol scol X W1 b1 W2 b2 W3 b3 := by
  unfold refOut kernelOut
  rw [relu_rLayer_eq dv gcol dcol scol hdv hcol, relu_rLayer_eq dv gcol dcol scol hdv hcol,
    rLayer_eq dv gcol dcol scol hdv hcol]

end Cert.Hand

end
-- ==== Proof.lean ====
/-
  A three-layer graph convolution computed two ways, equal over the extended reals.

  The graph has 100000 nodes and 1700000 edges (the given 1600000 and one self loop per node). With dv the inverse square
  root of a node's degree, one layer maps a node matrix T to

      out r = ∑ over the edges e that land at r of  dv (source e) · dv r · (T · W) (source e)   +  b,

  and a rectifier follows the first two of the three layers.

  * The reference scales every edge's message by dv (source) · dv (destination) and sums the messages per destination.
  * The kernel's program scales the rows of T · W by dv once in a dense stage (a region), reads the scaled rows along
    the edges and sums them per destination on the host, and scales row r of the sums by dv r once more at the start of
    the next dense stage (after the last layer, on the host), before the bias.

  On the edges that land at node r the destination's weight is dv r, a finite non-negative number, so it is a common
  factor of every term of r's sum and distributes over that sum of extended reals whatever the terms are; the factor
  dv (source) stays with its row. Hence each layer of the reference is the kernel's layer, entry by entry, and the
  three layers follow by substitution (Algebra.lean). The kernel program's result array is read off its run segment by
  segment (KRun, KChain1, KChain2, with each region's output array from Region0 / Region1 / Region2), the reference's off
  its run operation by operation (RefValue); both compute the edge columns and dv from the edge list by the same
  operations (Bridge).

  The three frames: the kernel's two programs' are their launch over the segments; the reference's is its run with the
  result dropped. The idealized kernel is the kernel's own text read over the extended reals, with no rewrite to state.
-/
import proofs.«106068_j19585050869931_2_alg».proof.Defs
import proofs.«106068_j19585050869931_2_alg».proof.Proof.Gen.Kernel
import proofs.«106068_j19585050869931_2_alg».proof.Proof.Gen.Kernel.Skeleton
import proofs.«106068_j19585050869931_2_alg».proof.Proof.Gen.Kernel.Launch
import proofs.«106068_j19585050869931_2_alg».proof.Proof.Gen.Kernel.Points
import proofs.«106068_j19585050869931_2_alg».proof.Proof.Gen.Kernel.Frame
import proofs.«106068_j19585050869931_2_alg».proof.Proof.Gen.KernelIdeal
import proofs.«106068_j19585050869931_2_alg».proof.Proof.Gen.KernelIdeal.Skeleton
import proofs.«106068_j19585050869931_2_alg».proof.Proof.Gen.KernelIdeal.Launch
import proofs.«106068_j19585050869931_2_alg».proof.Proof.Gen.KernelIdeal.Points
import proofs.«106068_j19585050869931_2_alg».proof.Proof.Gen.KernelIdeal.Frame
import proofs.«106068_j19585050869931_2_alg».proof.Proof.Gen.ReferenceIdeal
import proofs.«106068_j19585050869931_2_alg».proof.Proof.Gen.Pre_finite_inputs
import proofs.«106068_j19585050869931_2_alg».proof.Proof.RefRun
import proofs.«106068_j19585050869931_2_alg».proof.Proof.RefRead
import proofs.«106068_j19585050869931_2_alg».proof.Proof.RefValue
import proofs.«106068_j19585050869931_2_alg».proof.Proof.KRun
import proofs.«106068_j19585050869931_2_alg».proof.Proof.KChain2
import proofs.«106068_j19585050869931_2_alg».proof.Proof.Bridge
import proofs.«106068_j19585050869931_2_alg».proof.Proof.Algebra
import Idealize.ShloMosaic.Adequacy
import Idealize.ShloMosaic.Init

noncomputable section

namespace Cert.Proof

open Idealize.ShloMosaic Idealize.ShloMosaic.TcCoe Idealize.SL.Sem Cert.Hand

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result array: the kernel's is
    kernelOut of the arguments, the reference's is refOut of them, over the same edge columns and node weight, and the
    two arrangements agree. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v57),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  show Cert.ReferenceIdeal.Value.res_main_v114 m' c
    = Cert.KernelIdeal.Gen.W9 (F := Ideal) m ρ c (Proc.devRef .tc Cert.KernelIdeal.main_v57)
  rw [Cert.ReferenceIdeal.Read.val_main_v114_eq, h0, h1, h2, h3, h4, h5, h6, h7, Ref.ref_value, K.kernel_value,
    ref_eq_kernel _ _ _ _ (Ref.dv_bounds _) (Ref.lands_node _), gcol_eq, scol_eq, dv_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
